-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S64x2x224x224 : Shape := ⟨4, ![64, 2, 224, 224]⟩
abbrev S64x1x224x224 : Shape := ⟨4, ![64, 1, 224, 224]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S64x2x224x224 : S_.BroadcastsInDim S64x2x224x224 (![] : Fin 0 → Fin S64x2x224x224.rank)
  reducesTo_S64x2x224x224_S_d0_1_2_3 : S64x2x224x224.ReducesTo [0, 1, 2, 3] S_
  bcast_S_S64x1x224x224 : S_.BroadcastsInDim S64x1x224x224 (![] : Fin 0 → Fin S64x1x224x224.rank)
  reducesTo_S64x1x224x224_S_d0_1_2_3 : S64x1x224x224.ReducesTo [0, 1, 2, 3] S_

variable [Facts]

def fn_part1 {F : FTy → Type} [FloatOps F] (main_arg4 : FVec F S64x1x224x224 .f32) (main_v13 : IVec S_ 1) (main_v16 : IVec S64x1x224x224 1) : IVec S_ 1 :=
  let main_c_5 : IVec S_ 1 := constantI S_ 1 1#1
  let main_v17 : IVec S_ 1 := (fun x v => Host.reduce IntOp.andi x v reducesTo_S64x1x224x224_S_d0_1_2_3 h_S_) main_v16 main_c_5
  let main_v18 : IVec S_ 1 := andi main_v13 main_v17
  let main_v19 : FVec F S64x1x224x224 .f32 := Host.absf main_arg4
  let main_cst_6 : FVec F S_ .f32 := constant S_ .f32 0x7F800000#32
  let main_v20 : FVec F S64x1x224x224 .f32 := broadcastInDim S64x1x224x224 ![] bcast_S_S64x1x224x224 main_cst_6
  let main_v21 : IVec S64x1x224x224 1 := cmpf .olt main_v19 main_v20
  let main_c_7 : IVec S_ 1 := constantI S_ 1 1#1
  let main_v22 : IVec S_ 1 := (fun x v => Host.reduce IntOp.andi x v reducesTo_S64x1x224x224_S_d0_1_2_3 h_S_) main_v21 main_c_7
  let main_v23 : IVec S_ 1 := andi main_v18 main_v22
  main_v23

def fn {F : FTy → Type} [FloatOps F] (main_arg0 : FVec F S64x3x224x224 .f32) (main_arg1 : FVec F S64x3x224x224 .f32) (main_arg2 : FVec F S64x2x224x224 .f32) (main_arg3 : FVec F S64x1x224x224 .f32) (main_arg4 : FVec F S64x1x224x224 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S64x3x224x224 .f32 := Host.absf main_arg1
  let main_cst_0 : FVec F S_ .f32 := constant S_ .f32 0x7F800000#32
  let main_v5 : FVec F S64x3x224x224 .f32 := broadcastInDim S64x3x224x224 ![] bcast_S_S64x3x224x224 main_cst_0
  let main_v6 : IVec S64x3x224x224 1 := cmpf .olt main_v4 main_v5
  let main_c_1 : IVec S_ 1 := constantI S_ 1 1#1
  let main_v7 : IVec S_ 1 := (fun x v => Host.reduce IntOp.andi x v reducesTo_S64x3x224x224_S_d0_1_2_3 h_S_) main_v6 main_c_1
  let main_v8 : IVec S_ 1 := andi main_v3 main_v7
  let main_v9 : FVec F S64x2x224x224 .f32 := Host.absf main_arg2
  let main_cst_2 : FVec F S_ .f32 := constant S_ .f32 0x7F800000#32
  let main_v10 : FVec F S64x2x224x224 .f32 := broadcastInDim S64x2x224x224 ![] bcast_S_S64x2x224x224 main_cst_2
  let main_v11 : IVec S64x2x224x224 1 := cmpf .olt main_v9 main_v10
  let main_c_3 : IVec S_ 1 := constantI S_ 1 1#1
  let main_v12 : IVec S_ 1 := (fun x v => Host.reduce IntOp.andi x v reducesTo_S64x2x224x224_S_d0_1_2_3 h_S_) main_v11 main_c_3
  let main_v13 : IVec S_ 1 := andi main_v8 main_v12
  let main_v14 : FVec F S64x1x224x224 .f32 := Host.absf main_arg3
  let main_cst_4 : FVec F S_ .f32 := constant S_ .f32 0x7F800000#32
  let main_v15 : FVec F S64x1x224x224 .f32 := broadcastInDim S64x1x224x224 ![] bcast_S_S64x1x224x224 main_cst_4
  let main_v16 : IVec S64x1x224x224 1 := cmpf .olt main_v14 main_v15
  fn_part1 (F := F) main_arg4 main_v13 main_v16
-- ==== Kernel.lean ====
abbrev S64x3x224x224 : Shape := ⟨4, ![64, 3, 224, 224]⟩
abbrev S64x2x224x224 : Shape := ⟨4, ![64, 2, 224, 224]⟩
abbrev S64x1x224x224 : Shape := ⟨4, ![64, 1, 224, 224]⟩
abbrev S64x3x50176 : Shape := ⟨3, ![64, 3, 50176]⟩
abbrev S64x2x50176 : Shape := ⟨3, ![64, 2, 50176]⟩
abbrev S224 : Shape := ⟨1, ![224]⟩
abbrev S224x224 : Shape := ⟨2, ![224, 224]⟩
abbrev S50176 : Shape := ⟨1, ![50176]⟩
abbrev S1x224 : Shape := ⟨2, ![1, 224]⟩
abbrev S1x50176 : Shape := ⟨2, ![1, 50176]⟩
abbrev S2x50176 : Shape := ⟨2, ![2, 50176]⟩
abbrev S1x2x50176 : Shape := ⟨3, ![1, 2, 50176]⟩
abbrev S64x1x50176 : Shape := ⟨3, ![64, 1, 50176]⟩
abbrev S64x50176 : Shape := ⟨2, ![64, 50176]⟩
abbrev S_ : Shape := ⟨0, ![]⟩
abbrev S64x50176x1 : Shape := ⟨3, ![64, 50176, 1]⟩
abbrev S1 : Shape := ⟨1, ![1]⟩
abbrev S1x1x1 : Shape := ⟨3, ![1, 1, 1]⟩
abbrev S8x3x12544 : Shape := ⟨3, ![8, 3, 12544]⟩
abbrev S8x12544 : Shape := ⟨2, ![8, 12544]⟩
abbrev S8x1x12544 : Shape := ⟨3, ![8, 1, 12544]⟩

abbrev nBuf : Space → Nat
  | .hbm => 466
  | .vmem => 10
  | .smem => 0
  | _ => 0

abbrev hbmTy0_0 (i : Nat) : BufTy := match i % 128 with
  | 0 => ⟨S64x3x224x224, .f32⟩
  | 1 => ⟨S64x3x224x224, .f32⟩
  | 2 => ⟨S64x2x224x224, .f32⟩
  | 3 => ⟨S64x1x224x224, .f32⟩
  | 4 => ⟨S64x1x224x224, .f32⟩
  | 5 => ⟨S64x3x50176, .f32⟩
  | 6 => ⟨S64x3x50176, .f32⟩
  | 7 => ⟨S64x2x50176, .f32⟩
  | 8 => ⟨S224, .i32⟩
  | 9 => ⟨S224x224, .i32⟩
  | 10 => ⟨S50176, .i32⟩
  | 11 => ⟨S224, .i32⟩
  | 12 => ⟨S1x224, .i32⟩
  | 13 => ⟨S224x224, .i32⟩
  | 14 => ⟨S50176, .i32⟩
  | 15 => ⟨S1x50176, .i32⟩
  | 16 => ⟨S1x50176, .i32⟩
  | 17 => ⟨S2x50176, .i32⟩
  | 18 => ⟨S2x50176, .f32⟩
  | 19 => ⟨S1x2x50176, .f32⟩
  | 20 => ⟨S64x2x50176, .f32⟩
  | 21 => ⟨S64x2x50176, .f32⟩
  | 22 => ⟨S64x2x50176, .f32⟩
  | 23 => ⟨S64x2x50176, .f32⟩
  | 24 => ⟨S64x1x50176, .f32⟩
  | 25 => ⟨S64x50176, .f32⟩
  | 26 => ⟨S64x1x50176, .f32⟩
  | 27 => ⟨S64x50176, .f32⟩
  | 28 => ⟨S64x50176, .f32⟩
  | 29 => ⟨S64x50176, .f32⟩
  | 30 => ⟨S64x50176, .f32⟩
  | 31 => ⟨S64x50176, .f32⟩
  | 32 => ⟨S64x50176, .f32⟩
  | 33 => ⟨S64x50176, .f32⟩
  | 34 => ⟨S_, .f32⟩
  | 35 => ⟨S64x50176, .f32⟩
  | 36 => ⟨S64x50176, .f32⟩
  | 37 => ⟨S64x50176, .f32⟩
  | 38 => ⟨S64x50176, .f32⟩
  | 39 => ⟨S_, .f32⟩
  | 40 => ⟨S64x50176, .f32⟩
  | 41 => ⟨S64x50176, .f32⟩
  | 42 => ⟨S64x50176, .f32⟩
  | 43 => ⟨S_, .f32⟩
  | 44 => ⟨S64x50176, .f32⟩
  | 45 => ⟨S64x50176, .f32⟩
  | 46 => ⟨S64x50176, .f32⟩
  | 47 => ⟨S64x50176, .i32⟩
  | 48 => ⟨S_, .i32⟩
  | 49 => ⟨S_, .i32⟩
  | 50 => ⟨S_, .i32⟩
  | 51 => ⟨S64x50176, .i32⟩
  | 52 => ⟨S64x50176, .i32⟩
  | 53 => ⟨S_, .i32⟩
  | 54 => ⟨S64x50176, .i32⟩
  | 55 => ⟨S64x50176, .i32⟩
  | 56 => ⟨S64x1x50176, .i32⟩
  | 57 => ⟨S_, .i32⟩
  | 58 => ⟨S64x1x50176, .i32⟩
  | 59 => ⟨S64x1x50176, .i1⟩
  | 60 => ⟨S_, .i32⟩
  | 61 => ⟨S64x1x50176, .i32⟩
  | 62 => ⟨S64x1x50176, .i32⟩
  | 63 => ⟨S64x1x50176, .i32⟩
  | 64 => ⟨S64x50176x1, .i32⟩
  | 65 => ⟨S1, .i32⟩
  | 66 => ⟨S_, .i32⟩
  | 67 => ⟨S64x50176x1, .i32⟩
  | 68 => ⟨S64x50176x1, .i1⟩
  | 69 => ⟨S1x1x1, .i32⟩
  | 70 => ⟨S64x50176x1, .i32⟩
  | 71 => ⟨S64x50176x1, .i1⟩
  | 72 => ⟨S64x50176x1, .i1⟩
  | 73 => ⟨S_, .i1⟩
  | 74 => ⟨S64x50176, .i1⟩
  | 75 => ⟨S64x3x50176, .f32⟩
  | 76 => ⟨S64x3x50176, .i1⟩
  | 77 => ⟨S_, .f32⟩
  | 78 => ⟨S64x3x50176, .f32⟩
  | 79 => ⟨S64x3x50176, .f32⟩
  | 80 => ⟨S64x1x50176, .f32⟩
  | 81 => ⟨S64x3x50176, .f32⟩
  | 82 => ⟨S64x3x50176, .f32⟩
  | 83 => ⟨S64x50176, .f32⟩
  | 84 => ⟨S64x50176, .f32⟩
  | 85 => ⟨S_, .f32⟩
  | 86 => ⟨S64x50176, .f32⟩
  | 87 => ⟨S64x50176, .f32⟩
  | 88 => ⟨S64x50176, .f32⟩
  | 89 => ⟨S64x50176, .f32⟩
  | 90 => ⟨S_, .f32⟩
  | 91 => ⟨S64x50176, .f32⟩
  | 92 => ⟨S64x50176, .f32⟩
  | 93 => ⟨S64x50176, .f32⟩
  | 94 => ⟨S_, .f32⟩
  | 95 => ⟨S64x50176, .f32⟩
  | 96 => ⟨S64x50176, .f32⟩
  | 97 => ⟨S64x50176, .f32⟩
  | 98 => ⟨S64x50176, .i32⟩
  | 99 => ⟨S_, .i32⟩
  | 100 => ⟨S_, .i32⟩
  | 101 => ⟨S_, .i32⟩
  | 102 => ⟨S64x50176, .i32⟩
  | 103 => ⟨S64x50176, .i32⟩
  | 104 => ⟨S_, .i32⟩
  | 105 => ⟨S64x50176, .i32⟩
  | 106 => ⟨S64x50176, .i32⟩
  | 107 => ⟨S64x1x50176, .i32⟩
  | 108 => ⟨S_, .i32⟩
  | 109 => ⟨S64x1x50176, .i32⟩
  | 110 => ⟨S64x1x50176, .i1⟩
  | 111 => ⟨S_, .i32⟩
  | 112 => ⟨S64x1x50176, .i32⟩
  | 113 => ⟨S64x1x50176, .i32⟩
  | 114 => ⟨S64x1x50176, .i32⟩
  | 115 => ⟨S64x50176x1, .i32⟩
  | 116 => ⟨S1, .i32⟩
  | 117 => ⟨S_, .i32⟩
  | 118 => ⟨S64x50176x1, .i32⟩
  | 119 => ⟨S64x50176x1, .i1⟩
  | 120 => ⟨S1x1x1, .i32⟩
  | 121 => ⟨S64x50176x1, .i32⟩
  | 122 => ⟨S64x50176x1, .i1⟩
  | 123 => ⟨S64x50176x1, .i1⟩
  | 124 => ⟨S_, .i1⟩
  | 125 => ⟨S64x50176, .i1⟩
  | 126 => ⟨S64x3x50176, .f32⟩
  | 127 => ⟨S64x3x50176, .i1⟩
  | _ => ⟨S64x3x224x224, .f32⟩

abbrev hbmTy0_1 (i : Nat) : BufTy := match i % 128 with
  | 0 => ⟨S_, .f32⟩
  | 1 => ⟨S64x3x50176, .f32⟩
  | 2 => ⟨S64x3x50176, .f32⟩
  | 3 => ⟨S64x1x50176, .f32⟩
  | 4 => ⟨S64x3x50176, .f32⟩
  | 5 => ⟨S64x3x50176, .f32⟩
  | 6 => ⟨S64x3x50176, .f32⟩
  | 7 => ⟨S64x50176, .f32⟩
  | 8 => ⟨S64x50176, .f32⟩
  | 9 => ⟨S_, .f32⟩
  | 10 => ⟨S64x50176, .f32⟩
  | 11 => ⟨S64x50176, .f32⟩
  | 12 => ⟨S64x50176, .f32⟩
  | 13 => ⟨S64x50176, .f32⟩
  | 14 => ⟨S_, .f32⟩
  | 15 => ⟨S64x50176, .f32⟩
  | 16 => ⟨S64x50176, .f32⟩
  | 17 => ⟨S64x50176, .f32⟩
  | 18 => ⟨S_, .f32⟩
  | 19 => ⟨S64x50176, .f32⟩
  | 20 => ⟨S64x50176, .f32⟩
  | 21 => ⟨S64x50176, .f32⟩
  | 22 => ⟨S64x50176, .i32⟩
  | 23 => ⟨S_, .i32⟩
  | 24 => ⟨S_, .i32⟩
  | 25 => ⟨S_, .i32⟩
  | 26 => ⟨S64x50176, .i32⟩
  | 27 => ⟨S64x50176, .i32⟩
  | 28 => ⟨S_, .i32⟩
  | 29 => ⟨S64x50176, .i32⟩
  | 30 => ⟨S64x50176, .i32⟩
  | 31 => ⟨S64x1x50176, .i32⟩
  | 32 => ⟨S_, .i32⟩
  | 33 => ⟨S64x1x50176, .i32⟩
  | 34 => ⟨S64x1x50176, .i1⟩
  | 35 => ⟨S_, .i32⟩
  | 36 => ⟨S64x1x50176, .i32⟩
  | 37 => ⟨S64x1x50176, .i32⟩
  | 38 => ⟨S64x1x50176, .i32⟩
  | 39 => ⟨S64x50176x1, .i32⟩
  | 40 => ⟨S1, .i32⟩
  | 41 => ⟨S_, .i32⟩
  | 42 => ⟨S64x50176x1, .i32⟩
  | 43 => ⟨S64x50176x1, .i1⟩
  | 44 => ⟨S1x1x1, .i32⟩
  | 45 => ⟨S64x50176x1, .i32⟩
  | 46 => ⟨S64x50176x1, .i1⟩
  | 47 => ⟨S64x50176x1, .i1⟩
  | 48 => ⟨S_, .i1⟩
  | 49 => ⟨S64x50176, .i1⟩
  | 50 => ⟨S64x3x50176, .f32⟩
  | 51 => ⟨S64x3x50176, .i1⟩
  | 52 => ⟨S_, .f32⟩
  | 53 => ⟨S64x3x50176, .f32⟩
  | 54 => ⟨S64x3x50176, .f32⟩
  | 55 => ⟨S64x1x50176, .f32⟩
  | 56 => ⟨S64x3x50176, .f32⟩
  | 57 => ⟨S64x3x50176, .f32⟩
  | 58 => ⟨S64x3x50176, .f32⟩
  | 59 => ⟨S_, .f32⟩
  | 60 => ⟨S64x50176, .f32⟩
  | 61 => ⟨S64x50176, .f32⟩
  | 62 => ⟨S64x50176, .f32⟩
  | 63 => ⟨S64x50176, .f32⟩
  | 64 => ⟨S64x50176, .f32⟩
  | 65 => ⟨S_, .f32⟩
  | 66 => ⟨S64x50176, .f32⟩
  | 67 => ⟨S64x50176, .f32⟩
  | 68 => ⟨S64x50176, .f32⟩
  | 69 => ⟨S64x50176, .f32⟩
  | 70 => ⟨S_, .f32⟩
  | 71 => ⟨S64x50176, .f32⟩
  | 72 => ⟨S64x50176, .f32⟩
  | 73 => ⟨S64x50176, .f32⟩
  | 74 => ⟨S_, .f32⟩
  | 75 => ⟨S64x50176, .f32⟩
  | 76 => ⟨S64x50176, .f32⟩
  | 77 => ⟨S64x50176, .f32⟩
  | 78 => ⟨S64x50176, .i32⟩
  | 79 => ⟨S_, .i32⟩
  | 80 => ⟨S_, .i32⟩
  | 81 => ⟨S_, .i32⟩
  | 82 => ⟨S64x50176, .i32⟩
  | 83 => ⟨S64x50176, .i32⟩
  | 84 => ⟨S_, .i32⟩
  | 85 => ⟨S64x50176, .i32⟩
  | 86 => ⟨S64x50176, .i32⟩
  | 87 => ⟨S64x1x50176, .i32⟩
  | 88 => ⟨S_, .i32⟩
  | 89 => ⟨S64x1x50176, .i32⟩
  | 90 => ⟨S64x1x50176, .i1⟩
  | 91 => ⟨S_, .i32⟩
  | 92 => ⟨S64x1x50176, .i32⟩
  | 93 => ⟨S64x1x50176, .i32⟩
  | 94 => ⟨S64x1x50176, .i32⟩
  | 95 => ⟨S64x50176x1, .i32⟩
  | 96 => ⟨S1, .i32⟩
  | 97 => ⟨S_, .i32⟩
  | 98 => ⟨S64x50176x1, .i32⟩
  | 99 => ⟨S64x50176x1, .i1⟩
  | 100 => ⟨S1x1x1, .i32⟩
  | 101 => ⟨S64x50176x1, .i32⟩
  | 102 => ⟨S64x50176x1, .i1⟩
  | 103 => ⟨S64x50176x1, .i1⟩
  | 104 => ⟨S_, .i1⟩
  | 105 => ⟨S64x50176, .i1⟩
  | 106 => ⟨S64x3x50176, .f32⟩
  | 107 => ⟨S64x3x50176, .i1⟩
  | 108 => ⟨S_, .f32⟩
  | 109 => ⟨S64x3x50176, .f32⟩
  | 110 => ⟨S64x3x50176, .f32⟩
  | 111 => ⟨S64x1x50176, .f32⟩
  | 112 => ⟨S64x3x50176, .f32⟩
  | 113 => ⟨S64x3x50176, .f32⟩
  | 114 => ⟨S64x3x50176, .f32⟩
  | 115 => ⟨S64x1x50176, .f32⟩
  | 116 => ⟨S64x50176, .f32⟩
  | 117 => ⟨S64x1x50176, .f32⟩
  | 118 => ⟨S64x50176, .f32⟩
  | 119 => ⟨S64x50176, .f32⟩
  | 120 => ⟨S64x50176, .f32⟩
  | 121 => ⟨S64x50176, .f32⟩
  | 122 => ⟨S64x50176, .f32⟩
  | 123 => ⟨S64x50176, .f32⟩
  | 124 => ⟨S64x50176, .f32⟩
  | 125 => ⟨S_, .f32⟩
  | 126 => ⟨S64x50176, .f32⟩
  | 127 => ⟨S64x50176, .f32⟩
  | _ => ⟨S64x3x224x224, .f32⟩

abbrev hbmTy0_2 (i : Nat) : BufTy := match i % 128 with
  | 0 => ⟨S64x50176, .f32⟩
  | 1 => ⟨S64x50176, .f32⟩
  | 2 => ⟨S_, .f32⟩
  | 3 => ⟨S64x50176, .f32⟩
  | 4 => ⟨S64x50176, .f32⟩
  | 5 => ⟨S64x50176, .f32⟩
  | 6 => ⟨S_, .f32⟩
  | 7 => ⟨S64x50176, .f32⟩
  | 8 => ⟨S64x50176, .f32⟩
  | 9 => ⟨S64x50176, .f32⟩
  | 10 => ⟨S64x50176, .i32⟩
  | 11 => ⟨S_, .i32⟩
  | 12 => ⟨S_, .i32⟩
  | 13 => ⟨S_, .i32⟩
  | 14 => ⟨S64x50176, .i32⟩
  | 15 => ⟨S64x50176, .i32⟩
  | 16 => ⟨S_, .i32⟩
  | 17 => ⟨S64x50176, .i32⟩
  | 18 => ⟨S64x50176, .i32⟩
  | 19 => ⟨S64x1x50176, .i32⟩
  | 20 => ⟨S_, .i32⟩
  | 21 => ⟨S64x1x50176, .i32⟩
  | 22 => ⟨S64x1x50176, .i1⟩
  | 23 => ⟨S_, .i32⟩
  | 24 => ⟨S64x1x50176, .i32⟩
  | 25 => ⟨S64x1x50176, .i32⟩
  | 26 => ⟨S64x1x50176, .i32⟩
  | 27 => ⟨S64x50176x1, .i32⟩
  | 28 => ⟨S1, .i32⟩
  | 29 => ⟨S_, .i32⟩
  | 30 => ⟨S64x50176x1, .i32⟩
  | 31 => ⟨S64x50176x1, .i1⟩
  | 32 => ⟨S1x1x1, .i32⟩
  | 33 => ⟨S64x50176x1, .i32⟩
  | 34 => ⟨S64x50176x1, .i1⟩
  | 35 => ⟨S64x50176x1, .i1⟩
  | 36 => ⟨S_, .i1⟩
  | 37 => ⟨S64x50176, .i1⟩
  | 38 => ⟨S64x3x50176, .f32⟩
  | 39 => ⟨S64x3x50176, .i1⟩
  | 40 => ⟨S_, .f32⟩
  | 41 => ⟨S64x3x50176, .f32⟩
  | 42 => ⟨S64x3x50176, .f32⟩
  | 43 => ⟨S64x1x50176, .f32⟩
  | 44 => ⟨S64x3x50176, .f32⟩
  | 45 => ⟨S64x3x50176, .f32⟩
  | 46 => ⟨S64x50176, .f32⟩
  | 47 => ⟨S64x50176, .f32⟩
  | 48 => ⟨S_, .f32⟩
  | 49 => ⟨S64x50176, .f32⟩
  | 50 => ⟨S64x50176, .f32⟩
  | 51 => ⟨S64x50176, .f32⟩
  | 52 => ⟨S64x50176, .f32⟩
  | 53 => ⟨S_, .f32⟩
  | 54 => ⟨S64x50176, .f32⟩
  | 55 => ⟨S64x50176, .f32⟩
  | 56 => ⟨S64x50176, .f32⟩
  | 57 => ⟨S_, .f32⟩
  | 58 => ⟨S64x50176, .f32⟩
  | 59 => ⟨S64x50176, .f32⟩
  | 60 => ⟨S64x50176, .f32⟩
  | 61 => ⟨S64x50176, .i32⟩
  | 62 => ⟨S_, .i32⟩
  | 63 => ⟨S_, .i32⟩
  | 64 => ⟨S_, .i32⟩
  | 65 => ⟨S64x50176, .i32⟩
  | 66 => ⟨S64x50176, .i32⟩
  | 67 => ⟨S_, .i32⟩
  | 68 => ⟨S64x50176, .i32⟩
  | 69 => ⟨S64x50176, .i32⟩
  | 70 => ⟨S64x1x50176, .i32⟩
  | 71 => ⟨S_, .i32⟩
  | 72 => ⟨S64x1x50176, .i32⟩
  | 73 => ⟨S64x1x50176, .i1⟩
  | 74 => ⟨S_, .i32⟩
  | 75 => ⟨S64x1x50176, .i32⟩
  | 76 => ⟨S64x1x50176, .i32⟩
  | 77 => ⟨S64x1x50176, .i32⟩
  | 78 => ⟨S64x50176x1, .i32⟩
  | 79 => ⟨S1, .i32⟩
  | 80 => ⟨S_, .i32⟩
  | 81 => ⟨S64x50176x1, .i32⟩
  | 82 => ⟨S64x50176x1, .i1⟩
  | 83 => ⟨S1x1x1, .i32⟩
  | 84 => ⟨S64x50176x1, .i32⟩
  | 85 => ⟨S64x50176x1, .i1⟩
  | 86 => ⟨S64x50176x1, .i1⟩
  | 87 => ⟨S_, .i1⟩
  | 88 => ⟨S64x50176, .i1⟩
  | 89 => ⟨S64x3x50176, .f32⟩
  | 90 => ⟨S64x3x50176, .i1⟩
  | 91 => ⟨S_, .f32⟩
  | 92 => ⟨S64x3x50176, .f32⟩
  | 93 => ⟨S64x3x50176, .f32⟩
  | 94 => ⟨S64x1x50176, .f32⟩
  | 95 => ⟨S64x3x50176, .f32⟩
  | 96 => ⟨S64x3x50176, .f32⟩
  | 97 => ⟨S64x3x50176, .f32⟩
  | 98 => ⟨S64x50176, .f32⟩
  | 99 => ⟨S64x50176, .f32⟩
  | 100 => ⟨S_, .f32⟩
  | 101 => ⟨S64x50176, .f32⟩
  | 102 => ⟨S64x50176, .f32⟩
  | 103 => ⟨S64x50176, .f32⟩
  | 104 => ⟨S64x50176, .f32⟩
  | 105 => ⟨S_, .f32⟩
  | 106 => ⟨S64x50176, .f32⟩
  | 107 => ⟨S64x50176, .f32⟩
  | 108 => ⟨S64x50176, .f32⟩
  | 109 => ⟨S_, .f32⟩
  | 110 => ⟨S64x50176, .f32⟩
  | 111 => ⟨S64x50176, .f32⟩
  | 112 => ⟨S64x50176, .f32⟩
  | 113 => ⟨S64x50176, .i32⟩
  | 114 => ⟨S_, .i32⟩
  | 115 => ⟨S_, .i32⟩
  | 116 => ⟨S_, .i32⟩
  | 117 => ⟨S64x50176, .i32⟩
  | 118 => ⟨S64x50176, .i32⟩
  | 119 => ⟨S_, .i32⟩
  | 120 => ⟨S64x50176, .i32⟩
  | 121 => ⟨S64x50176, .i32⟩
  | 122 => ⟨S64x1x50176, .i32⟩
  | 123 => ⟨S_, .i32⟩
  | 124 => ⟨S64x1x50176, .i32⟩
  | 125 => ⟨S64x1x50176, .i1⟩
  | 126 => ⟨S_, .i32⟩
  | 127 => ⟨S64x1x50176, .i32⟩
  | _ => ⟨S64x3x224x224, .f32⟩

abbrev hbmTy0_3 (i : Nat) : BufTy := match i % 128 with
  | 0 => ⟨S64x1x50176, .i32⟩
  | 1 => ⟨S64x1x50176, .i32⟩
  | 2 => ⟨S64x50176x1, .i32⟩
  | 3 => ⟨S1, .i32⟩
  | 4 => ⟨S_, .i32⟩
  | 5 => ⟨S64x50176x1, .i32⟩
  | 6 => ⟨S64x50176x1, .i1⟩
  | 7 => ⟨S1x1x1, .i32⟩
  | 8 => ⟨S64x50176x1, .i32⟩
  | 9 => ⟨S64x50176x1, .i1⟩
  | 10 => ⟨S64x50176x1, .i1⟩
  | 11 => ⟨S_, .i1⟩
  | 12 => ⟨S64x50176, .i1⟩
  | 13 => ⟨S64x3x50176, .f32⟩
  | 14 => ⟨S64x3x50176, .i1⟩
  | 15 => ⟨S_, .f32⟩
  | 16 => ⟨S64x3x50176, .f32⟩
  | 17 => ⟨S64x3x50176, .f32⟩
  | 18 => ⟨S64x1x50176, .f32⟩
  | 19 => ⟨S64x3x50176, .f32⟩
  | 20 => ⟨S64x3x50176, .f32⟩
  | 21 => ⟨S64x3x50176, .f32⟩
  | 22 => ⟨S_, .f32⟩
  | 23 => ⟨S64x50176, .f32⟩
  | 24 => ⟨S64x50176, .f32⟩
  | 25 => ⟨S64x50176, .f32⟩
  | 26 => ⟨S64x50176, .f32⟩
  | 27 => ⟨S64x50176, .f32⟩
  | 28 => ⟨S_, .f32⟩
  | 29 => ⟨S64x50176, .f32⟩
  | 30 => ⟨S64x50176, .f32⟩
  | 31 => ⟨S64x50176, .f32⟩
  | 32 => ⟨S64x50176, .f32⟩
  | 33 => ⟨S_, .f32⟩
  | 34 => ⟨S64x50176, .f32⟩
  | 35 => ⟨S64x50176, .f32⟩
  | 36 => ⟨S64x50176, .f32⟩
  | 37 => ⟨S_, .f32⟩
  | 38 => ⟨S64x50176, .f32⟩
  | 39 => ⟨S64x50176, .f32⟩
  | 40 => ⟨S64x50176, .f32⟩
  | 41 => ⟨S64x50176, .i32⟩
  | 42 => ⟨S_, .i32⟩
  | 43 => ⟨S_, .i32⟩
  | 44 => ⟨S_, .i32⟩
  | 45 => ⟨S64x50176, .i32⟩
  | 46 => ⟨S64x50176, .i32⟩
  | 47 => ⟨S_, .i32⟩
  | 48 => ⟨S64x50176, .i32⟩
  | 49 => ⟨S64x50176, .i32⟩
  | 50 => ⟨S64x1x50176, .i32⟩
  | 51 => ⟨S_, .i32⟩
  | 52 => ⟨S64x1x50176, .i32⟩
  | 53 => ⟨S64x1x50176, .i1⟩
  | 54 => ⟨S_, .i32⟩
  | 55 => ⟨S64x1x50176, .i32⟩
  | 56 => ⟨S64x1x50176, .i32⟩
  | 57 => ⟨S64x1x50176, .i32⟩
  | 58 => ⟨S64x50176x1, .i32⟩
  | 59 => ⟨S1, .i32⟩
  | 60 => ⟨S_, .i32⟩
  | 61 => ⟨S64x50176x1, .i32⟩
  | 62 => ⟨S64x50176x1, .i1⟩
  | 63 => ⟨S1x1x1, .i32⟩
  | 64 => ⟨S64x50176x1, .i32⟩
  | 65 => ⟨S64x50176x1, .i1⟩
  | 66 => ⟨S64x50176x1, .i1⟩
  | 67 => ⟨S_, .i1⟩
  | 68 => ⟨S64x50176, .i1⟩
  | 69 => ⟨S64x3x50176, .f32⟩
  | 70 => ⟨S64x3x50176, .i1⟩
  | 71 => ⟨S_, .f32⟩
  | 72 => ⟨S64x3x50176, .f32⟩
  | 73 => ⟨S64x3x50176, .f32⟩
  | 74 => ⟨S64x1x50176, .f32⟩
  | 75 => ⟨S64x3x50176, .f32⟩
  | 76 => ⟨S64x3x50176, .f32⟩
  | 77 => ⟨S64x3x50176, .f32⟩
  | 78 => ⟨S64x50176, .f32⟩
  | 79 => ⟨S64x50176, .f32⟩
  | 80 => ⟨S64x3x50176, .f32⟩
  | 81 => ⟨S64x3x224x224, .f32⟩
  | _ => ⟨S64x3x224x224, .f32⟩

abbrev hbmTy (i : Nat) : BufTy := match i / 128 with
  | 0 => hbmTy0_0 i
  | 1 => hbmTy0_1 i
  | 2 => hbmTy0_2 i
  | 3 => hbmTy0_3 i
  | _ => ⟨S64x3x224x224, .f32⟩

abbrev bufTy : (tb : Table) → Fin (tcTables nBuf tb) → BufTy
  | .hbm, ⟨i, _⟩ => hbmTy i
  | .local _ .vmem, ⟨0, _⟩ => ⟨S8x3x12544, .f32⟩
  | .local _ .vmem, ⟨1, _⟩ => ⟨S8x3x12544, .f32⟩
  | .local _ .vmem, ⟨2, _⟩ => ⟨S8x3x12544, .f32⟩
  | .local _ .vmem, ⟨3, _⟩ => ⟨S8x3x12544, .f32⟩
  | .local _ .vmem, ⟨4, _⟩ => ⟨S8x12544, .f32⟩
  | .local _ .vmem, ⟨5, _⟩ => ⟨S8x12544, .f32⟩
  | .local _ .vmem, ⟨6, _⟩ => ⟨S8x12544, .f32⟩
  | .local _ .vmem, ⟨7, _⟩ => ⟨S8x12544, .f32⟩
  | .local _ .vmem, ⟨8, _⟩ => ⟨S8x3x12544, .f32⟩
  | .local _ .vmem, ⟨9, _⟩ => ⟨S8x3x12544, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_c_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v40 : Ref sig .tc := ⟨.hbm, 55, rfl⟩
abbrev main_v41 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_3 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_4 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_5 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_6 : Ref sig .tc := ⟨.hbm, 99, rfl⟩
abbrev main_c_7 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v59 : Ref sig .tc := ⟨.hbm, 106, rfl⟩
abbrev main_v60 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_v14 : Ref sig .tc := ⟨.hbm, 127, rfl⟩
abbrev main_call3_cst : Ref sig .tc := ⟨.hbm, 128, rfl⟩
abbrev main_call3_v15 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_8 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_9 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_10 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_c_11 : Ref sig .tc := ⟨.hbm, 151, rfl⟩
abbrev main_c_12 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v79 : Ref sig .tc := ⟨.hbm, 158, rfl⟩
abbrev main_v80 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_c_1 : Ref sig .tc := ⟨.hbm, 168, rfl⟩
abbrev main_call5_c_2 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_c_3 : Ref sig .tc := ⟨.hbm, 176, rfl⟩
abbrev main_call5_v12 : Ref sig .tc := ⟨.hbm, 177, rfl⟩
abbrev main_call5_v13 : Ref sig .tc := ⟨.hbm, 178, rfl⟩
abbrev main_call5_v14 : Ref sig .tc := ⟨.hbm, 179, rfl⟩
abbrev main_call5_cst : Ref sig .tc := ⟨.hbm, 180, rfl⟩
abbrev main_call5_v15 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_cst_13 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_cst_14 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_cst_15 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_cst_16 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_c_17 : Ref sig .tc := ⟨.hbm, 207, rfl⟩
abbrev main_c_18 : Ref sig .tc := ⟨.hbm, 208, rfl⟩
abbrev main_call6_v0 : Ref sig .tc := ⟨.hbm, 209, rfl⟩
abbrev main_call6_v1 : Ref sig .tc := ⟨.hbm, 210, rfl⟩
abbrev main_call6_v2 : Ref sig .tc := ⟨.hbm, 211, rfl⟩
abbrev main_call6_v3 : Ref sig .tc := ⟨.hbm, 212, rfl⟩
abbrev main_call6_v4 : Ref sig .tc := ⟨.hbm, 213, rfl⟩
abbrev main_v102 : Ref sig .tc := ⟨.hbm, 214, rfl⟩
abbrev main_v103 : Ref sig .tc := ⟨.hbm, 215, rfl⟩
abbrev main_call7_c : Ref sig .tc := ⟨.hbm, 216, rfl⟩
abbrev main_call7_v0 : Ref sig .tc := ⟨.hbm, 217, rfl⟩
abbrev main_call7_v1 : Ref sig .tc := ⟨.hbm, 218, rfl⟩
abbrev main_call7_c_0 : Ref sig .tc := ⟨.hbm, 219, rfl⟩
abbrev main_call7_v2 : Ref sig .tc := ⟨.hbm, 220, rfl⟩
abbrev main_call7_v3 : Ref sig .tc := ⟨.hbm, 221, rfl⟩
abbrev main_call7_v4 : Ref sig .tc := ⟨.hbm, 222, rfl⟩
abbrev main_call7_v5 : Ref sig .tc := ⟨.hbm, 223, rfl⟩
abbrev main_call7_c_1 : Ref sig .tc := ⟨.hbm, 224, rfl⟩
abbrev main_call7_c_2 : Ref sig .tc := ⟨.hbm, 225, rfl⟩
abbrev main_call7_v6 : Ref sig .tc := ⟨.hbm, 226, rfl⟩
abbrev main_call7_v7 : Ref sig .tc := ⟨.hbm, 227, rfl⟩
abbrev main_call7_v8 : Ref sig .tc := ⟨.hbm, 228, rfl⟩
abbrev main_call7_v9 : Ref sig .tc := ⟨.hbm, 229, rfl⟩
abbrev main_call7_v10 : Ref sig .tc := ⟨.hbm, 230, rfl⟩
abbrev main_call7_v11 : Ref sig .tc := ⟨.hbm, 231, rfl⟩
abbrev main_call7_c_3 : Ref sig .tc := ⟨.hbm, 232, rfl⟩
abbrev main_call7_v12 : Ref sig .tc := ⟨.hbm, 233, rfl⟩
abbrev main_call7_v13 : Ref sig .tc := ⟨.hbm, 234, rfl⟩
abbrev main_call7_v14 : Ref sig .tc := ⟨.hbm, 235, rfl⟩
abbrev main_call7_cst : Ref sig .tc := ⟨.hbm, 236, rfl⟩
abbrev main_call7_v15 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_cst_19 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_cst_20 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_cst_21 : Ref sig .tc := ⟨.hbm, 262, rfl⟩
abbrev main_v126 : Ref sig .tc := ⟨.hbm, 263, rfl⟩
abbrev main_v127 : Ref sig .tc := ⟨.hbm, 264, rfl⟩
abbrev main_v128 : Ref sig .tc := ⟨.hbm, 265, rfl⟩
abbrev main_v129 : Ref sig .tc := ⟨.hbm, 266, rfl⟩
abbrev main_c_22 : Ref sig .tc := ⟨.hbm, 267, rfl⟩
abbrev main_c_23 : Ref sig .tc := ⟨.hbm, 268, rfl⟩
abbrev main_call8_v0 : Ref sig .tc := ⟨.hbm, 269, rfl⟩
abbrev main_call8_v1 : Ref sig .tc := ⟨.hbm, 270, rfl⟩
abbrev main_call8_v2 : Ref sig .tc := ⟨.hbm, 271, rfl⟩
abbrev main_call8_v3 : Ref sig .tc := ⟨.hbm, 272, rfl⟩
abbrev main_call8_v4 : Ref sig .tc := ⟨.hbm, 273, rfl⟩
abbrev main_v130 : Ref sig .tc := ⟨.hbm, 274, rfl⟩
abbrev main_v131 : Ref sig .tc := ⟨.hbm, 275, rfl⟩
abbrev main_call9_c : Ref sig .tc := ⟨.hbm, 276, rfl⟩
abbrev main_call9_v0 : Ref sig .tc := ⟨.hbm, 277, rfl⟩
abbrev main_call9_v1 : Ref sig .tc := ⟨.hbm, 278, rfl⟩
abbrev main_call9_c_0 : Ref sig .tc := ⟨.hbm, 279, rfl⟩
abbrev main_call9_v2 : Ref sig .tc := ⟨.hbm, 280, rfl⟩
abbrev main_call9_v3 : Ref sig .tc := ⟨.hbm, 281, rfl⟩
abbrev main_call9_v4 : Ref sig .tc := ⟨.hbm, 282, rfl⟩
abbrev main_call9_v5 : Ref sig .tc := ⟨.hbm, 283, rfl⟩
abbrev main_call9_c_1 : Ref sig .tc := ⟨.hbm, 284, rfl⟩
abbrev main_call9_c_2 : Ref sig .tc := ⟨.hbm, 285, rfl⟩
abbrev main_call9_v6 : Ref sig .tc := ⟨.hbm, 286, rfl⟩
abbrev main_call9_v7 : Ref sig .tc := ⟨.hbm, 287, rfl⟩
abbrev main_call9_v8 : Ref sig .tc := ⟨.hbm, 288, rfl⟩
abbrev main_call9_v9 : Ref sig .tc := ⟨.hbm, 289, rfl⟩
abbrev main_call9_v10 : Ref sig .tc := ⟨.hbm, 290, rfl⟩
abbrev main_call9_v11 : Ref sig .tc := ⟨.hbm, 291, rfl⟩
abbrev main_call9_c_3 : Ref sig .tc := ⟨.hbm, 292, rfl⟩
abbrev main_call9_v12 : Ref sig .tc := ⟨.hbm, 293, rfl⟩
abbrev main_call9_v13 : Ref sig .tc := ⟨.hbm, 294, rfl⟩
abbrev main_call9_v14 : Ref sig .tc := ⟨.hbm, 295, rfl⟩
abbrev main_call9_cst : Ref sig .tc := ⟨.hbm, 296, rfl⟩
abbrev main_call9_v15 : Ref sig .tc := ⟨.hbm, 297, rfl⟩
abbrev main_v132 : Ref sig .tc := ⟨.hbm, 298, rfl⟩
abbrev main_v133 : Ref sig .tc := ⟨.hbm, 299, rfl⟩
abbrev main_v134 : Ref sig .tc := ⟨.hbm, 300, rfl⟩
abbrev main_v135 : Ref sig .tc := ⟨.hbm, 301, rfl⟩
abbrev main_v136 : Ref sig .tc := ⟨.hbm, 302, rfl⟩
abbrev main_v137 : Ref sig .tc := ⟨.hbm, 303, rfl⟩
abbrev main_cst_24 : Ref sig .tc := ⟨.hbm, 304, rfl⟩
abbrev main_v138 : Ref sig .tc := ⟨.hbm, 305, rfl⟩
abbrev main_v139 : Ref sig .tc := ⟨.hbm, 306, rfl⟩
abbrev main_v140 : Ref sig .tc := ⟨.hbm, 307, rfl⟩
abbrev main_v141 : Ref sig .tc := ⟨.hbm, 308, rfl⟩
abbrev main_cst_25 : Ref sig .tc := ⟨.hbm, 309, rfl⟩
abbrev main_v142 : Ref sig .tc := ⟨.hbm, 310, rfl⟩
abbrev main_v143 : Ref sig .tc := ⟨.hbm, 311, rfl⟩
abbrev main_v144 : Ref sig .tc := ⟨.hbm, 312, rfl⟩
abbrev main_cst_26 : Ref sig .tc := ⟨.hbm, 313, rfl⟩
abbrev main_v145 : Ref sig .tc := ⟨.hbm, 314, rfl⟩
abbrev main_v146 : Ref sig .tc := ⟨.hbm, 315, rfl⟩
abbrev main_v147 : Ref sig .tc := ⟨.hbm, 316, rfl⟩
abbrev main_v148 : Ref sig .tc := ⟨.hbm, 317, rfl⟩
abbrev main_c_27 : Ref sig .tc := ⟨.hbm, 318, rfl⟩
abbrev main_c_28 : Ref sig .tc := ⟨.hbm, 319, rfl⟩
abbrev main_call10_v0 : Ref sig .tc := ⟨.hbm, 320, rfl⟩
abbrev main_call10_v1 : Ref sig .tc := ⟨.hbm, 321, rfl⟩
abbrev main_call10_v2 : Ref sig .tc := ⟨.hbm, 322, rfl⟩
abbrev main_call10_v3 : Ref sig .tc := ⟨.hbm, 323, rfl⟩
abbrev main_call10_v4 : Ref sig .tc := ⟨.hbm, 324, rfl⟩
abbrev main_v149 : Ref sig .tc := ⟨.hbm, 325, rfl⟩
abbrev main_v150 : Ref sig .tc := ⟨.hbm, 326, rfl⟩
abbrev main_call11_c : Ref sig .tc := ⟨.hbm, 327, rfl⟩
abbrev main_call11_v0 : Ref sig .tc := ⟨.hbm, 328, rfl⟩
abbrev main_call11_v1 : Ref sig .tc := ⟨.hbm, 329, rfl⟩
abbrev main_call11_c_0 : Ref sig .tc := ⟨.hbm, 330, rfl⟩
abbrev main_call11_v2 : Ref sig .tc := ⟨.hbm, 331, rfl⟩
abbrev main_call11_v3 : Ref sig .tc := ⟨.hbm, 332, rfl⟩
abbrev main_call11_v4 : Ref sig .tc := ⟨.hbm, 333, rfl⟩
abbrev main_call11_v5 : Ref sig .tc := ⟨.hbm, 334, rfl⟩
abbrev main_call11_c_1 : Ref sig .tc := ⟨.hbm, 335, rfl⟩
abbrev main_call11_c_2 : Ref sig .tc := ⟨.hbm, 336, rfl⟩
abbrev main_call11_v6 : Ref sig .tc := ⟨.hbm, 337, rfl⟩
abbrev main_call11_v7 : Ref sig .tc := ⟨.hbm, 338, rfl⟩
abbrev main_call11_v8 : Ref sig .tc := ⟨.hbm, 339, rfl⟩
abbrev main_call11_v9 : Ref sig .tc := ⟨.hbm, 340, rfl⟩
abbrev main_call11_v10 : Ref sig .tc := ⟨.hbm, 341, rfl⟩
abbrev main_call11_v11 : Ref sig .tc := ⟨.hbm, 342, rfl⟩
abbrev main_call11_c_3 : Ref sig .tc := ⟨.hbm, 343, rfl⟩
abbrev main_call11_v12 : Ref sig .tc := ⟨.hbm, 344, rfl⟩
abbrev main_call11_v13 : Ref sig .tc := ⟨.hbm, 345, rfl⟩
abbrev main_call11_v14 : Ref sig .tc := ⟨.hbm, 346, rfl⟩
abbrev main_call11_cst : Ref sig .tc := ⟨.hbm, 347, rfl⟩
abbrev main_call11_v15 : Ref sig .tc := ⟨.hbm, 348, rfl⟩
abbrev main_v151 : Ref sig .tc := ⟨.hbm, 349, rfl⟩
abbrev main_v152 : Ref sig .tc := ⟨.hbm, 350, rfl⟩
abbrev main_v153 : Ref sig .tc := ⟨.hbm, 351, rfl⟩
abbrev main_v154 : Ref sig .tc := ⟨.hbm, 352, rfl⟩
abbrev main_v155 : Ref sig .tc := ⟨.hbm, 353, rfl⟩
abbrev main_v156 : Ref sig .tc := ⟨.hbm, 354, rfl⟩
abbrev main_v157 : Ref sig .tc := ⟨.hbm, 355, rfl⟩
abbrev main_cst_29 : Ref sig .tc := ⟨.hbm, 356, rfl⟩
abbrev main_v158 : Ref sig .tc := ⟨.hbm, 357, rfl⟩
abbrev main_v159 : Ref sig .tc := ⟨.hbm, 358, rfl⟩
abbrev main_v160 : Ref sig .tc := ⟨.hbm, 359, rfl⟩
abbrev main_v161 : Ref sig .tc := ⟨.hbm, 360, rfl⟩
abbrev main_cst_30 : Ref sig .tc := ⟨.hbm, 361, rfl⟩
abbrev main_v162 : Ref sig .tc := ⟨.hbm, 362, rfl⟩
abbrev main_v163 : Ref sig .tc := ⟨.hbm, 363, rfl⟩
abbrev main_v164 : Ref sig .tc := ⟨.hbm, 364, rfl⟩
abbrev main_cst_31 : Ref sig .tc := ⟨.hbm, 365, rfl⟩
abbrev main_v165 : Ref sig .tc := ⟨.hbm, 366, rfl⟩
abbrev main_v166 : Ref sig .tc := ⟨.hbm, 367, rfl⟩
abbrev main_v167 : Ref sig .tc := ⟨.hbm, 368, rfl⟩
abbrev main_v168 : Ref sig .tc := ⟨.hbm, 369, rfl⟩
abbrev main_c_32 : Ref sig .tc := ⟨.hbm, 370, rfl⟩
abbrev main_c_33 : Ref sig .tc := ⟨.hbm, 371, rfl⟩
abbrev main_call12_v0 : Ref sig .tc := ⟨.hbm, 372, rfl⟩
abbrev main_call12_v1 : Ref sig .tc := ⟨.hbm, 373, rfl⟩
abbrev main_call12_v2 : Ref sig .tc := ⟨.hbm, 374, rfl⟩
abbrev main_call12_v3 : Ref sig .tc := ⟨.hbm, 375, rfl⟩
abbrev main_call12_v4 : Ref sig .tc := ⟨.hbm, 376, rfl⟩
abbrev main_v169 : Ref sig .tc := ⟨.hbm, 377, rfl⟩
abbrev main_v170 : Ref sig .tc := ⟨.hbm, 378, rfl⟩
abbrev main_call13_c : Ref sig .tc := ⟨.hbm, 379, rfl⟩
abbrev main_call13_v0 : Ref sig .tc := ⟨.hbm, 380, rfl⟩
abbrev main_call13_v1 : Ref sig .tc := ⟨.hbm, 381, rfl⟩
abbrev main_call13_c_0 : Ref sig .tc := ⟨.hbm, 382, rfl⟩
abbrev main_call13_v2 : Ref sig .tc := ⟨.hbm, 383, rfl⟩
abbrev main_call13_v3 : Ref sig .tc := ⟨.hbm, 384, rfl⟩
abbrev main_call13_v4 : Ref sig .tc := ⟨.hbm, 385, rfl⟩
abbrev main_call13_v5 : Ref sig .tc := ⟨.hbm, 386, rfl⟩
abbrev main_call13_c_1 : Ref sig .tc := ⟨.hbm, 387, rfl⟩
abbrev main_call13_c_2 : Ref sig .tc := ⟨.hbm, 388, rfl⟩
abbrev main_call13_v6 : Ref sig .tc := ⟨.hbm, 389, rfl⟩
abbrev main_call13_v7 : Ref sig .tc := ⟨.hbm, 390, rfl⟩
abbrev main_call13_v8 : Ref sig .tc := ⟨.hbm, 391, rfl⟩
abbrev main_call13_v9 : Ref sig .tc := ⟨.hbm, 392, rfl⟩
abbrev main_call13_v10 : Ref sig .tc := ⟨.hbm, 393, rfl⟩
abbrev main_call13_v11 : Ref sig .tc := ⟨.hbm, 394, rfl⟩
abbrev main_call13_c_3 : Ref sig .tc := ⟨.hbm, 395, rfl⟩
abbrev main_call13_v12 : Ref sig .tc := ⟨.hbm, 396, rfl⟩
abbrev main_call13_v13 : Ref sig .tc := ⟨.hbm, 397, rfl⟩
abbrev main_call13_v14 : Ref sig .tc := ⟨.hbm, 398, rfl⟩
abbrev main_call13_cst : Ref sig .tc := ⟨.hbm, 399, rfl⟩
abbrev main_call13_v15 : Ref sig .tc := ⟨.hbm, 400, rfl⟩
abbrev main_v171 : Ref sig .tc := ⟨.hbm, 401, rfl⟩
abbrev main_v172 : Ref sig .tc := ⟨.hbm, 402, rfl⟩
abbrev main_v173 : Ref sig .tc := ⟨.hbm, 403, rfl⟩
abbrev main_v174 : Ref sig .tc := ⟨.hbm, 404, rfl⟩
abbrev main_v175 : Ref sig .tc := ⟨.hbm, 405, rfl⟩
abbrev main_cst_34 : Ref sig .tc := ⟨.hbm, 406, rfl⟩
abbrev main_v176 : Ref sig .tc := ⟨.hbm, 407, rfl⟩
abbrev main_v177 : Ref sig .tc := ⟨.hbm, 408, rfl⟩
abbrev main_v178 : Ref sig .tc := ⟨.hbm, 409, rfl⟩
abbrev main_v179 : Ref sig .tc := ⟨.hbm, 410, rfl⟩
abbrev main_v180 : Ref sig .tc := ⟨.hbm, 411, rfl⟩
abbrev main_cst_35 : Ref sig .tc := ⟨.hbm, 412, rfl⟩
abbrev main_v181 : Ref sig .tc := ⟨.hbm, 413, rfl⟩
abbrev main_v182 : Ref sig .tc := ⟨.hbm, 414, rfl⟩
abbrev main_v183 : Ref sig .tc := ⟨.hbm, 415, rfl⟩
abbrev main_v184 : Ref sig .tc := ⟨.hbm, 416, rfl⟩
abbrev main_cst_36 : Ref sig .tc := ⟨.hbm, 417, rfl⟩
abbrev main_v185 : Ref sig .tc := ⟨.hbm, 418, rfl⟩
abbrev main_v186 : Ref sig .tc := ⟨.hbm, 419, rfl⟩
abbrev main_v187 : Ref sig .tc := ⟨.hbm, 420, rfl⟩
abbrev main_cst_37 : Ref sig .tc := ⟨.hbm, 421, rfl⟩
abbrev main_v188 : Ref sig .tc := ⟨.hbm, 422, rfl⟩
abbrev main_v189 : Ref sig .tc := ⟨.hbm, 423, rfl⟩
abbrev main_v190 : Ref sig .tc := ⟨.hbm, 424, rfl⟩
abbrev main_v191 : Ref sig .tc := ⟨.hbm, 425, rfl⟩
abbrev main_c_38 : Ref sig .tc := ⟨.hbm, 426, rfl⟩
abbrev main_c_39 : Ref sig .tc := ⟨.hbm, 427, rfl⟩
abbrev main_call14_v0 : Ref sig .tc := ⟨.hbm, 428, rfl⟩
abbrev main_call14_v1 : Ref sig .tc := ⟨.hbm, 429, rfl⟩
abbrev main_call14_v2 : Ref sig .tc := ⟨.hbm, 430, rfl⟩
abbrev main_call14_v3 : Ref sig .tc := ⟨.hbm, 431, rfl⟩
abbrev main_call14_v4 : Ref sig .tc := ⟨.hbm, 432, rfl⟩
abbrev main_v192 : Ref sig .tc := ⟨.hbm, 433, rfl⟩
abbrev main_v193 : Ref sig .tc := ⟨.hbm, 434, rfl⟩
abbrev main_call15_c : Ref sig .tc := ⟨.hbm, 435, rfl⟩
abbrev main_call15_v0 : Ref sig .tc := ⟨.hbm, 436, rfl⟩
abbrev main_call15_v1 : Ref sig .tc := ⟨.hbm, 437, rfl⟩
abbrev main_call15_c_0 : Ref sig .tc := ⟨.hbm, 438, rfl⟩
abbrev main_call15_v2 : Ref sig .tc := ⟨.hbm, 439, rfl⟩
abbrev main_call15_v3 : Ref sig .tc := ⟨.hbm, 440, rfl⟩
abbrev main_call15_v4 : Ref sig .tc := ⟨.hbm, 441, rfl⟩
abbrev main_call15_v5 : Ref sig .tc := ⟨.hbm, 442, rfl⟩
abbrev main_call15_c_1 : Ref sig .tc := ⟨.hbm, 443, rfl⟩
abbrev main_call15_c_2 : Ref sig .tc := ⟨.hbm, 444, rfl⟩
abbrev main_call15_v6 : Ref sig .tc := ⟨.hbm, 445, rfl⟩
abbrev main_call15_v7 : Ref sig .tc := ⟨.hbm, 446, rfl⟩
abbrev main_call15_v8 : Ref sig .tc := ⟨.hbm, 447, rfl⟩
abbrev main_call15_v9 : Ref sig .tc := ⟨.hbm, 448, rfl⟩
abbrev main_call15_v10 : Ref sig .tc := ⟨.hbm, 449, rfl⟩
abbrev main_call15_v11 : Ref sig .tc := ⟨.hbm, 450, rfl⟩
abbrev main_call15_c_3 : Ref sig .tc := ⟨.hbm, 451, rfl⟩
abbrev main_call15_v12 : Ref sig .tc := ⟨.hbm, 452, rfl⟩
abbrev main_call15_v13 : Ref sig .tc := ⟨.hbm, 453, rfl⟩
abbrev main_call15_v14 : Ref sig .tc := ⟨.hbm, 454, rfl⟩
abbrev main_call15_cst : Ref sig .tc := ⟨.hbm, 455, rfl⟩
abbrev main_call15_v15 : Ref sig .tc := ⟨.hbm, 456, rfl⟩
abbrev main_v194 : Ref sig .tc := ⟨.hbm, 457, rfl⟩
abbrev main_v195 : Ref sig .tc := ⟨.hbm, 458, rfl⟩
abbrev main_v196 : Ref sig .tc := ⟨.hbm, 459, rfl⟩
abbrev main_v197 : Ref sig .tc := ⟨.hbm, 460, rfl⟩
abbrev main_v198 : Ref sig .tc := ⟨.hbm, 461, rfl⟩
abbrev main_v199 : Ref sig .tc := ⟨.hbm, 462, rfl⟩
abbrev main_v200 : Ref sig .tc := ⟨.hbm, 463, rfl⟩
abbrev main_v201 : Ref sig .tc := ⟨.hbm, 464, rfl⟩
abbrev main_v202 : Ref sig .tc := ⟨.hbm, 465, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x3x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x12544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x3x12544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64x3x224x224_S64x3x50176 : S64x3x224x224.ShapeCasts S64x3x50176
  shapeCasts_S64x2x224x224_S64x2x50176 : S64x2x224x224.ShapeCasts S64x2x50176
  bcast_S224_S224x224_0 : S224.BroadcastsInDim S224x224 (![0] : Fin 1 → Fin S224x224.rank)
  shapeCasts_S224x224_S50176 : S224x224.ShapeCasts S50176
  shapeCasts_S224_S1x224 : S224.ShapeCasts S1x224
  bcast_S1x224_S224x224_0_1 : S1x224.BroadcastsInDim S224x224 (![0, 1] : Fin 2 → Fin S224x224.rank)
  bcast_S50176_S1x50176_1 : S50176.BroadcastsInDim S1x50176 (![1] : Fin 1 → Fin S1x50176.rank)
  concatenates_S1x50176_S1x50176_S2x50176_d0 : Shape.Concatenates [S1x50176, S1x50176] S2x50176 0
  bcast_S2x50176_S1x2x50176_1_2 : S2x50176.BroadcastsInDim S1x2x50176 (![1, 2] : Fin 2 → Fin S1x2x50176.rank)
  bcast_S1x2x50176_S64x2x50176_0_1_2 : S1x2x50176.BroadcastsInDim S64x2x50176 (![0, 1, 2] : Fin 3 → Fin S64x2x50176.rank)
  slices_S64x2x50176_S64x1x50176_0_0_0 : S64x2x50176.Slices ![0, 0, 0] S64x1x50176
  shapeCasts_S64x1x50176_S64x50176 : S64x1x50176.ShapeCasts S64x50176
  slices_S64x2x50176_S64x1x50176_0_1_0 : S64x2x50176.Slices ![0, 1, 0] S64x1x50176
  bcast_S_S64x50176 : S_.BroadcastsInDim S64x50176 (![] : Fin 0 → Fin S64x50176.rank)
  bcast_S64x50176_S64x1x50176_0_2 : S64x50176.BroadcastsInDim S64x1x50176 (![0, 2] : Fin 2 → Fin S64x1x50176.rank)
  bcast_S_S64x1x50176 : S_.BroadcastsInDim S64x1x50176 (![] : Fin 0 → Fin S64x1x50176.rank)
  shapeCasts_S64x1x50176_S64x50176x1 : S64x1x50176.ShapeCasts S64x50176x1
  bcast_S_S64x50176x1 : S_.BroadcastsInDim S64x50176x1 (![] : Fin 0 → Fin S64x50176x1.rank)
  bcast_S1_S1x1x1_2 : S1.BroadcastsInDim S1x1x1 (![2] : Fin 1 → Fin S1x1x1.rank)
  bcast_S1x1x1_S64x50176x1_0_1_2 : S1x1x1.BroadcastsInDim S64x50176x1 (![0, 1, 2] : Fin 3 → Fin S64x50176x1.rank)
  reducesTo_S64x50176x1_S64x50176_d2 : S64x50176x1.ReducesTo [2] S64x50176
  h_S_ : 0 < S_.numel
  bcast_S64x50176_S64x3x50176_0_2 : S64x50176.BroadcastsInDim S64x3x50176 (![0, 2] : Fin 2 → Fin S64x3x50176.rank)
  bcast_S_S64x3x50176 : S_.BroadcastsInDim S64x3x50176 (![] : Fin 0 → Fin S64x3x50176.rank)
  bcast_S64x1x50176_S64x3x50176_0_1_2 : S64x1x50176.BroadcastsInDim S64x3x50176 (![0, 1, 2] : Fin 3 → Fin S64x3x50176.rank)
  shapeCasts_S64x1x224x224_S64x50176 : S64x1x224x224.ShapeCasts S64x50176
  inb_S8x3x12544_S8x3x12544_0_0_0 : ∀ a, (![0, 0, 0] : Fin 3 → Nat) a + S8x3x12544.size a ≤ S8x3x12544.size a
  h_S8x3x12544 : 0 < S8x3x12544.numel
  shapeCasts_S8x3x12544_S8x3x12544 : S8x3x12544.ShapeCasts S8x3x12544
  inb_S8x12544_S8x12544_0_0 : ∀ a, (![0, 0] : Fin 2 → Nat) a + S8x12544.size a ≤ S8x12544.size a
  h_S8x12544 : 0 < S8x12544.numel
  shapeCasts_S8x12544_S8x12544 : S8x12544.ShapeCasts S8x12544
  shapeCasts_S8x12544_S8x1x12544 : S8x12544.ShapeCasts S8x1x12544
  shapeCasts_S8x1x12544_S8x1x12544 : S8x1x12544.ShapeCasts S8x1x12544
  broadcasts_S8x1x12544_S8x3x12544 : S8x1x12544.Broadcasts S8x3x12544
  shapeCasts_S64x3x50176_S64x3x224x224 : S64x3x50176.ShapeCasts S64x3x224x224
  gather_S64x3x50176_S64x50176x1_S64x3x50176_1_2_0_0_2_2_131_wf : GatherDims.WF S64x3x50176 S64x50176x1 S64x3x50176 [1] [2] [0] [2] [0] 2 ![1, 3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x12544.size a ≤ S64x3x50176.size a
  hwx0_0 : ∀ i : grid0.Coords, EltTy.bits .f32 = 32 ∨ (Rect.block (s := S64x3x50176) S8x3x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x12544.size a ≤ S64x3x50176.size a
  hwx0_1 : ∀ i : grid0.Coords, EltTy.bits .f32 = 32 ∨ (Rect.block (s := S64x3x50176) S8x3x12544.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x12544.size a ≤ S64x50176.size a
  hwx0_2 : ∀ i : grid0.Coords, EltTy.bits .f32 = 32 ∨ (Rect.block (s := S64x50176) S8x12544.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x12544.size a ≤ S64x50176.size a
  hwx0_3 : ∀ i : grid0.Coords, EltTy.bits .f32 = 32 ∨ (Rect.block (s := S64x50176) S8x12544.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3x12544.size a ≤ S64x3x50176.size a
  hwx0_4 : ∀ i : grid0.Coords, EltTy.bits .f32 = 32 ∨ (Rect.block (s := S64x3x50176) S8x3x12544.size (cc0_transform_4 i) (hinb0_4 i)).WholeWords (EltTy.packing .f32)

variable [Facts₀]

def gather_S64x3x50176_S64x50176x1_S64x3x50176_1_2_0_0_2_2_131 : GatherDims S64x3x50176 S64x50176x1 S64x3x50176 where
  offsetDims := [1]
  collapsedSliceDims := [2]
  operandBatchingDims := [0]
  startIndicesBatchingDims := [0]
  startIndexMap := [2]
  indexVectorDim := 2
  sliceSizes := ![1, 3, 1]
  wf := gather_S64x3x50176_S64x50176x1_S64x3x50176_1_2_0_0_2_2_131_wf

abbrev win0_0 : Pipeline.Window sig grid0 :=
  Pipeline.Window.ofSpec (Memref.whole main_v108) S8x3x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v198) S8x3x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v199) S8x12544.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v200) S8x12544.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v201) S8x3x12544.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S64x2x224x224 : Shape := ⟨4, ![64, 2, 224, 224]⟩
abbrev S64x1x224x224 : Shape := ⟨4, ![64, 1, 224, 224]⟩
abbrev S224 : Shape := ⟨1, ![224]⟩
abbrev S224x224 : Shape := ⟨2, ![224, 224]⟩
abbrev S50176 : Shape := ⟨1, ![50176]⟩
abbrev S1x224 : Shape := ⟨2, ![1, 224]⟩
abbrev S1x50176 : Shape := ⟨2, ![1, 50176]⟩
abbrev S2x50176 : Shape := ⟨2, ![2, 50176]⟩
abbrev S1x2x50176 : Shape := ⟨3, ![1, 2, 50176]⟩
abbrev S64x2x50176 : Shape := ⟨3, ![64, 2, 50176]⟩
abbrev S64x3x50176 : Shape := ⟨3, ![64, 3, 50176]⟩
abbrev S64x1x50176 : Shape := ⟨3, ![64, 1, 50176]⟩
abbrev S64x50176 : Shape := ⟨2, ![64, 50176]⟩
abbrev S_ : Shape := ⟨0, ![]⟩
abbrev S64x50176x1 : Shape := ⟨3, ![64, 50176, 1]⟩
abbrev S1 : Shape := ⟨1, ![1]⟩
abbrev S1x1x1 : Shape := ⟨3, ![1, 1, 1]⟩

abbrev nBuf : Space → Nat
  | .hbm => 469
  | .vmem => 0
  | .smem => 0
  | _ => 0

abbrev hbmTy0_0 (i : Nat) : BufTy := match i % 128 with
  | 0 => ⟨S64x3x224x224, .f32⟩
  | 1 => ⟨S64x3x224x224, .f32⟩
  | 2 => ⟨S64x2x224x224, .f32⟩
  | 3 => ⟨S64x1x224x224, .f32⟩
  | 4 => ⟨S64x1x224x224, .f32⟩
  | 5 => ⟨S224, .i32⟩
  | 6 => ⟨S224x224, .i32⟩
  | 7 => ⟨S50176, .i32⟩
  | 8 => ⟨S224, .i32⟩
  | 9 => ⟨S1x224, .i32⟩
  | 10 => ⟨S224x224, .i32⟩
  | 11 => ⟨S50176, .i32⟩
  | 12 => ⟨S1x50176, .i32⟩
  | 13 => ⟨S1x50176, .i32⟩
  | 14 => ⟨S2x50176, .i32⟩
  | 15 => ⟨S2x50176, .f32⟩
  | 16 => ⟨S1x2x50176, .f32⟩
  | 17 => ⟨S64x2x50176, .f32⟩
  | 18 => ⟨S64x3x50176, .f32⟩
  | 19 => ⟨S64x2x50176, .f32⟩
  | 20 => ⟨S64x2x50176, .f32⟩
  | 21 => ⟨S64x1x50176, .f32⟩
  | 22 => ⟨S64x50176, .f32⟩
  | 23 => ⟨S64x1x50176, .f32⟩
  | 24 => ⟨S64x50176, .f32⟩
  | 25 => ⟨S64x50176, .f32⟩
  | 26 => ⟨S64x50176, .f32⟩
  | 27 => ⟨S64x50176, .f32⟩
  | 28 => ⟨S64x50176, .f32⟩
  | 29 => ⟨S64x50176, .f32⟩
  | 30 => ⟨S64x50176, .f32⟩
  | 31 => ⟨S_, .f32⟩
  | 32 => ⟨S64x50176, .f32⟩
  | 33 => ⟨S64x50176, .f32⟩
  | 34 => ⟨S64x50176, .f32⟩
  | 35 => ⟨S64x50176, .f32⟩
  | 36 => ⟨S_, .f32⟩
  | 37 => ⟨S64x50176, .f32⟩
  | 38 => ⟨S64x50176, .f32⟩
  | 39 => ⟨S64x50176, .f32⟩
  | 40 => ⟨S_, .f32⟩
  | 41 => ⟨S64x50176, .f32⟩
  | 42 => ⟨S64x50176, .f32⟩
  | 43 => ⟨S64x50176, .f32⟩
  | 44 => ⟨S64x50176, .i32⟩
  | 45 => ⟨S_, .i32⟩
  | 46 => ⟨S_, .i32⟩
  | 47 => ⟨S_, .i32⟩
  | 48 => ⟨S64x50176, .i32⟩
  | 49 => ⟨S64x50176, .i32⟩
  | 50 => ⟨S_, .i32⟩
  | 51 => ⟨S64x50176, .i32⟩
  | 52 => ⟨S64x50176, .i32⟩
  | 53 => ⟨S64x1x50176, .i32⟩
  | 54 => ⟨S_, .i32⟩
  | 55 => ⟨S64x1x50176, .i32⟩
  | 56 => ⟨S64x1x50176, .i1⟩
  | 57 => ⟨S_, .i32⟩
  | 58 => ⟨S64x1x50176, .i32⟩
  | 59 => ⟨S64x1x50176, .i32⟩
  | 60 => ⟨S64x1x50176, .i32⟩
  | 61 => ⟨S64x50176x1, .i32⟩
  | 62 => ⟨S1, .i32⟩
  | 63 => ⟨S_, .i32⟩
  | 64 => ⟨S64x50176x1, .i32⟩
  | 65 => ⟨S64x50176x1, .i1⟩
  | 66 => ⟨S1x1x1, .i32⟩
  | 67 => ⟨S64x50176x1, .i32⟩
  | 68 => ⟨S64x50176x1, .i1⟩
  | 69 => ⟨S64x50176x1, .i1⟩
  | 70 => ⟨S_, .i1⟩
  | 71 => ⟨S64x50176, .i1⟩
  | 72 => ⟨S64x3x50176, .f32⟩
  | 73 => ⟨S64x3x50176, .i1⟩
  | 74 => ⟨S_, .f32⟩
  | 75 => ⟨S64x3x50176, .f32⟩
  | 76 => ⟨S64x3x50176, .f32⟩
  | 77 => ⟨S64x1x50176, .f32⟩
  | 78 => ⟨S64x3x50176, .f32⟩
  | 79 => ⟨S64x3x50176, .f32⟩
  | 80 => ⟨S64x50176, .f32⟩
  | 81 => ⟨S64x50176, .f32⟩
  | 82 => ⟨S_, .f32⟩
  | 83 => ⟨S64x50176, .f32⟩
  | 84 => ⟨S64x50176, .f32⟩
  | 85 => ⟨S64x50176, .f32⟩
  | 86 => ⟨S64x50176, .f32⟩
  | 87 => ⟨S_, .f32⟩
  | 88 => ⟨S64x50176, .f32⟩
  | 89 => ⟨S64x50176, .f32⟩
  | 90 => ⟨S64x50176, .f32⟩
  | 91 => ⟨S_, .f32⟩
  | 92 => ⟨S64x50176, .f32⟩
  | 93 => ⟨S64x50176, .f32⟩
  | 94 => ⟨S64x50176, .f32⟩
  | 95 => ⟨S64x50176, .i32⟩
  | 96 => ⟨S_, .i32⟩
  | 97 => ⟨S_, .i32⟩
  | 98 => ⟨S_, .i32⟩
  | 99 => ⟨S64x50176, .i32⟩
  | 100 => ⟨S64x50176, .i32⟩
  | 101 => ⟨S_, .i32⟩
  | 102 => ⟨S64x50176, .i32⟩
  | 103 => ⟨S64x50176, .i32⟩
  | 104 => ⟨S64x1x50176, .i32⟩
  | 105 => ⟨S_, .i32⟩
  | 106 => ⟨S64x1x50176, .i32⟩
  | 107 => ⟨S64x1x50176, .i1⟩
  | 108 => ⟨S_, .i32⟩
  | 109 => ⟨S64x1x50176, .i32⟩
  | 110 => ⟨S64x1x50176, .i32⟩
  | 111 => ⟨S64x1x50176, .i32⟩
  | 112 => ⟨S64x50176x1, .i32⟩
  | 113 => ⟨S1, .i32⟩
  | 114 => ⟨S_, .i32⟩
  | 115 => ⟨S64x50176x1, .i32⟩
  | 116 => ⟨S64x50176x1, .i1⟩
  | 117 => ⟨S1x1x1, .i32⟩
  | 118 => ⟨S64x50176x1, .i32⟩
  | 119 => ⟨S64x50176x1, .i1⟩
  | 120 => ⟨S64x50176x1, .i1⟩
  | 121 => ⟨S_, .i1⟩
  | 122 => ⟨S64x50176, .i1⟩
  | 123 => ⟨S64x3x50176, .f32⟩
  | 124 => ⟨S64x3x50176, .i1⟩
  | 125 => ⟨S_, .f32⟩
  | 126 => ⟨S64x3x50176, .f32⟩
  | 127 => ⟨S64x3x50176, .f32⟩
  | _ => ⟨S64x3x224x224, .f32⟩

abbrev hbmTy0_1 (i : Nat) : BufTy := match i % 128 with
  | 0 => ⟨S64x1x50176, .f32⟩
  | 1 => ⟨S64x3x50176, .f32⟩
  | 2 => ⟨S64x3x50176, .f32⟩
  | 3 => ⟨S64x3x50176, .f32⟩
  | 4 => ⟨S64x50176, .f32⟩
  | 5 => ⟨S64x50176, .f32⟩
  | 6 => ⟨S_, .f32⟩
  | 7 => ⟨S64x50176, .f32⟩
  | 8 => ⟨S64x50176, .f32⟩
  | 9 => ⟨S64x50176, .f32⟩
  | 10 => ⟨S64x50176, .f32⟩
  | 11 => ⟨S_, .f32⟩
  | 12 => ⟨S64x50176, .f32⟩
  | 13 => ⟨S64x50176, .f32⟩
  | 14 => ⟨S64x50176, .f32⟩
  | 15 => ⟨S_, .f32⟩
  | 16 => ⟨S64x50176, .f32⟩
  | 17 => ⟨S64x50176, .f32⟩
  | 18 => ⟨S64x50176, .f32⟩
  | 19 => ⟨S64x50176, .i32⟩
  | 20 => ⟨S_, .i32⟩
  | 21 => ⟨S_, .i32⟩
  | 22 => ⟨S_, .i32⟩
  | 23 => ⟨S64x50176, .i32⟩
  | 24 => ⟨S64x50176, .i32⟩
  | 25 => ⟨S_, .i32⟩
  | 26 => ⟨S64x50176, .i32⟩
  | 27 => ⟨S64x50176, .i32⟩
  | 28 => ⟨S64x1x50176, .i32⟩
  | 29 => ⟨S_, .i32⟩
  | 30 => ⟨S64x1x50176, .i32⟩
  | 31 => ⟨S64x1x50176, .i1⟩
  | 32 => ⟨S_, .i32⟩
  | 33 => ⟨S64x1x50176, .i32⟩
  | 34 => ⟨S64x1x50176, .i32⟩
  | 35 => ⟨S64x1x50176, .i32⟩
  | 36 => ⟨S64x50176x1, .i32⟩
  | 37 => ⟨S1, .i32⟩
  | 38 => ⟨S_, .i32⟩
  | 39 => ⟨S64x50176x1, .i32⟩
  | 40 => ⟨S64x50176x1, .i1⟩
  | 41 => ⟨S1x1x1, .i32⟩
  | 42 => ⟨S64x50176x1, .i32⟩
  | 43 => ⟨S64x50176x1, .i1⟩
  | 44 => ⟨S64x50176x1, .i1⟩
  | 45 => ⟨S_, .i1⟩
  | 46 => ⟨S64x50176, .i1⟩
  | 47 => ⟨S64x3x50176, .f32⟩
  | 48 => ⟨S64x3x50176, .i1⟩
  | 49 => ⟨S_, .f32⟩
  | 50 => ⟨S64x3x50176, .f32⟩
  | 51 => ⟨S64x3x50176, .f32⟩
  | 52 => ⟨S64x1x50176, .f32⟩
  | 53 => ⟨S64x3x50176, .f32⟩
  | 54 => ⟨S64x3x50176, .f32⟩
  | 55 => ⟨S64x3x50176, .f32⟩
  | 56 => ⟨S_, .f32⟩
  | 57 => ⟨S64x50176, .f32⟩
  | 58 => ⟨S64x50176, .f32⟩
  | 59 => ⟨S64x50176, .f32⟩
  | 60 => ⟨S64x50176, .f32⟩
  | 61 => ⟨S64x50176, .f32⟩
  | 62 => ⟨S_, .f32⟩
  | 63 => ⟨S64x50176, .f32⟩
  | 64 => ⟨S64x50176, .f32⟩
  | 65 => ⟨S64x50176, .f32⟩
  | 66 => ⟨S64x50176, .f32⟩
  | 67 => ⟨S_, .f32⟩
  | 68 => ⟨S64x50176, .f32⟩
  | 69 => ⟨S64x50176, .f32⟩
  | 70 => ⟨S64x50176, .f32⟩
  | 71 => ⟨S_, .f32⟩
  | 72 => ⟨S64x50176, .f32⟩
  | 73 => ⟨S64x50176, .f32⟩
  | 74 => ⟨S64x50176, .f32⟩
  | 75 => ⟨S64x50176, .i32⟩
  | 76 => ⟨S_, .i32⟩
  | 77 => ⟨S_, .i32⟩
  | 78 => ⟨S_, .i32⟩
  | 79 => ⟨S64x50176, .i32⟩
  | 80 => ⟨S64x50176, .i32⟩
  | 81 => ⟨S_, .i32⟩
  | 82 => ⟨S64x50176, .i32⟩
  | 83 => ⟨S64x50176, .i32⟩
  | 84 => ⟨S64x1x50176, .i32⟩
  | 85 => ⟨S_, .i32⟩
  | 86 => ⟨S64x1x50176, .i32⟩
  | 87 => ⟨S64x1x50176, .i1⟩
  | 88 => ⟨S_, .i32⟩
  | 89 => ⟨S64x1x50176, .i32⟩
  | 90 => ⟨S64x1x50176, .i32⟩
  | 91 => ⟨S64x1x50176, .i32⟩
  | 92 => ⟨S64x50176x1, .i32⟩
  | 93 => ⟨S1, .i32⟩
  | 94 => ⟨S_, .i32⟩
  | 95 => ⟨S64x50176x1, .i32⟩
  | 96 => ⟨S64x50176x1, .i1⟩
  | 97 => ⟨S1x1x1, .i32⟩
  | 98 => ⟨S64x50176x1, .i32⟩
  | 99 => ⟨S64x50176x1, .i1⟩
  | 100 => ⟨S64x50176x1, .i1⟩
  | 101 => ⟨S_, .i1⟩
  | 102 => ⟨S64x50176, .i1⟩
  | 103 => ⟨S64x3x50176, .f32⟩
  | 104 => ⟨S64x3x50176, .i1⟩
  | 105 => ⟨S_, .f32⟩
  | 106 => ⟨S64x3x50176, .f32⟩
  | 107 => ⟨S64x3x50176, .f32⟩
  | 108 => ⟨S64x1x50176, .f32⟩
  | 109 => ⟨S64x3x50176, .f32⟩
  | 110 => ⟨S64x3x50176, .f32⟩
  | 111 => ⟨S64x3x50176, .f32⟩
  | 112 => ⟨S64x3x224x224, .f32⟩
  | 113 => ⟨S64x3x224x224, .f32⟩
  | 114 => ⟨S64x3x224x224, .f32⟩
  | 115 => ⟨S64x3x50176, .f32⟩
  | 116 => ⟨S64x2x50176, .f32⟩
  | 117 => ⟨S64x2x50176, .f32⟩
  | 118 => ⟨S64x1x50176, .f32⟩
  | 119 => ⟨S64x50176, .f32⟩
  | 120 => ⟨S64x1x50176, .f32⟩
  | 121 => ⟨S64x50176, .f32⟩
  | 122 => ⟨S64x50176, .f32⟩
  | 123 => ⟨S64x50176, .f32⟩
  | 124 => ⟨S64x50176, .f32⟩
  | 125 => ⟨S64x50176, .f32⟩
  | 126 => ⟨S64x50176, .f32⟩
  | 127 => ⟨S64x50176, .f32⟩
  | _ => ⟨S64x3x224x224, .f32⟩

abbrev hbmTy0_2 (i : Nat) : BufTy := match i % 128 with
  | 0 => ⟨S_, .f32⟩
  | 1 => ⟨S64x50176, .f32⟩
  | 2 => ⟨S64x50176, .f32⟩
  | 3 => ⟨S64x50176, .f32⟩
  | 4 => ⟨S64x50176, .f32⟩
  | 5 => ⟨S_, .f32⟩
  | 6 => ⟨S64x50176, .f32⟩
  | 7 => ⟨S64x50176, .f32⟩
  | 8 => ⟨S64x50176, .f32⟩
  | 9 => ⟨S_, .f32⟩
  | 10 => ⟨S64x50176, .f32⟩
  | 11 => ⟨S64x50176, .f32⟩
  | 12 => ⟨S64x50176, .f32⟩
  | 13 => ⟨S64x50176, .i32⟩
  | 14 => ⟨S_, .i32⟩
  | 15 => ⟨S_, .i32⟩
  | 16 => ⟨S_, .i32⟩
  | 17 => ⟨S64x50176, .i32⟩
  | 18 => ⟨S64x50176, .i32⟩
  | 19 => ⟨S_, .i32⟩
  | 20 => ⟨S64x50176, .i32⟩
  | 21 => ⟨S64x50176, .i32⟩
  | 22 => ⟨S64x1x50176, .i32⟩
  | 23 => ⟨S_, .i32⟩
  | 24 => ⟨S64x1x50176, .i32⟩
  | 25 => ⟨S64x1x50176, .i1⟩
  | 26 => ⟨S_, .i32⟩
  | 27 => ⟨S64x1x50176, .i32⟩
  | 28 => ⟨S64x1x50176, .i32⟩
  | 29 => ⟨S64x1x50176, .i32⟩
  | 30 => ⟨S64x50176x1, .i32⟩
  | 31 => ⟨S1, .i32⟩
  | 32 => ⟨S_, .i32⟩
  | 33 => ⟨S64x50176x1, .i32⟩
  | 34 => ⟨S64x50176x1, .i1⟩
  | 35 => ⟨S1x1x1, .i32⟩
  | 36 => ⟨S64x50176x1, .i32⟩
  | 37 => ⟨S64x50176x1, .i1⟩
  | 38 => ⟨S64x50176x1, .i1⟩
  | 39 => ⟨S_, .i1⟩
  | 40 => ⟨S64x50176, .i1⟩
  | 41 => ⟨S64x3x50176, .f32⟩
  | 42 => ⟨S64x3x50176, .i1⟩
  | 43 => ⟨S_, .f32⟩
  | 44 => ⟨S64x3x50176, .f32⟩
  | 45 => ⟨S64x3x50176, .f32⟩
  | 46 => ⟨S64x1x50176, .f32⟩
  | 47 => ⟨S64x3x50176, .f32⟩
  | 48 => ⟨S64x3x50176, .f32⟩
  | 49 => ⟨S64x50176, .f32⟩
  | 50 => ⟨S64x50176, .f32⟩
  | 51 => ⟨S_, .f32⟩
  | 52 => ⟨S64x50176, .f32⟩
  | 53 => ⟨S64x50176, .f32⟩
  | 54 => ⟨S64x50176, .f32⟩
  | 55 => ⟨S64x50176, .f32⟩
  | 56 => ⟨S_, .f32⟩
  | 57 => ⟨S64x50176, .f32⟩
  | 58 => ⟨S64x50176, .f32⟩
  | 59 => ⟨S64x50176, .f32⟩
  | 60 => ⟨S_, .f32⟩
  | 61 => ⟨S64x50176, .f32⟩
  | 62 => ⟨S64x50176, .f32⟩
  | 63 => ⟨S64x50176, .f32⟩
  | 64 => ⟨S64x50176, .i32⟩
  | 65 => ⟨S_, .i32⟩
  | 66 => ⟨S_, .i32⟩
  | 67 => ⟨S_, .i32⟩
  | 68 => ⟨S64x50176, .i32⟩
  | 69 => ⟨S64x50176, .i32⟩
  | 70 => ⟨S_, .i32⟩
  | 71 => ⟨S64x50176, .i32⟩
  | 72 => ⟨S64x50176, .i32⟩
  | 73 => ⟨S64x1x50176, .i32⟩
  | 74 => ⟨S_, .i32⟩
  | 75 => ⟨S64x1x50176, .i32⟩
  | 76 => ⟨S64x1x50176, .i1⟩
  | 77 => ⟨S_, .i32⟩
  | 78 => ⟨S64x1x50176, .i32⟩
  | 79 => ⟨S64x1x50176, .i32⟩
  | 80 => ⟨S64x1x50176, .i32⟩
  | 81 => ⟨S64x50176x1, .i32⟩
  | 82 => ⟨S1, .i32⟩
  | 83 => ⟨S_, .i32⟩
  | 84 => ⟨S64x50176x1, .i32⟩
  | 85 => ⟨S64x50176x1, .i1⟩
  | 86 => ⟨S1x1x1, .i32⟩
  | 87 => ⟨S64x50176x1, .i32⟩
  | 88 => ⟨S64x50176x1, .i1⟩
  | 89 => ⟨S64x50176x1, .i1⟩
  | 90 => ⟨S_, .i1⟩
  | 91 => ⟨S64x50176, .i1⟩
  | 92 => ⟨S64x3x50176, .f32⟩
  | 93 => ⟨S64x3x50176, .i1⟩
  | 94 => ⟨S_, .f32⟩
  | 95 => ⟨S64x3x50176, .f32⟩
  | 96 => ⟨S64x3x50176, .f32⟩
  | 97 => ⟨S64x1x50176, .f32⟩
  | 98 => ⟨S64x3x50176, .f32⟩
  | 99 => ⟨S64x3x50176, .f32⟩
  | 100 => ⟨S64x3x50176, .f32⟩
  | 101 => ⟨S64x50176, .f32⟩
  | 102 => ⟨S64x50176, .f32⟩
  | 103 => ⟨S_, .f32⟩
  | 104 => ⟨S64x50176, .f32⟩
  | 105 => ⟨S64x50176, .f32⟩
  | 106 => ⟨S64x50176, .f32⟩
  | 107 => ⟨S64x50176, .f32⟩
  | 108 => ⟨S_, .f32⟩
  | 109 => ⟨S64x50176, .f32⟩
  | 110 => ⟨S64x50176, .f32⟩
  | 111 => ⟨S64x50176, .f32⟩
  | 112 => ⟨S_, .f32⟩
  | 113 => ⟨S64x50176, .f32⟩
  | 114 => ⟨S64x50176, .f32⟩
  | 115 => ⟨S64x50176, .f32⟩
  | 116 => ⟨S64x50176, .i32⟩
  | 117 => ⟨S_, .i32⟩
  | 118 => ⟨S_, .i32⟩
  | 119 => ⟨S_, .i32⟩
  | 120 => ⟨S64x50176, .i32⟩
  | 121 => ⟨S64x50176, .i32⟩
  | 122 => ⟨S_, .i32⟩
  | 123 => ⟨S64x50176, .i32⟩
  | 124 => ⟨S64x50176, .i32⟩
  | 125 => ⟨S64x1x50176, .i32⟩
  | 126 => ⟨S_, .i32⟩
  | 127 => ⟨S64x1x50176, .i32⟩
  | _ => ⟨S64x3x224x224, .f32⟩

abbrev hbmTy0_3 (i : Nat) : BufTy := match i % 128 with
  | 0 => ⟨S64x1x50176, .i1⟩
  | 1 => ⟨S_, .i32⟩
  | 2 => ⟨S64x1x50176, .i32⟩
  | 3 => ⟨S64x1x50176, .i32⟩
  | 4 => ⟨S64x1x50176, .i32⟩
  | 5 => ⟨S64x50176x1, .i32⟩
  | 6 => ⟨S1, .i32⟩
  | 7 => ⟨S_, .i32⟩
  | 8 => ⟨S64x50176x1, .i32⟩
  | 9 => ⟨S64x50176x1, .i1⟩
  | 10 => ⟨S1x1x1, .i32⟩
  | 11 => ⟨S64x50176x1, .i32⟩
  | 12 => ⟨S64x50176x1, .i1⟩
  | 13 => ⟨S64x50176x1, .i1⟩
  | 14 => ⟨S_, .i1⟩
  | 15 => ⟨S64x50176, .i1⟩
  | 16 => ⟨S64x3x50176, .f32⟩
  | 17 => ⟨S64x3x50176, .i1⟩
  | 18 => ⟨S_, .f32⟩
  | 19 => ⟨S64x3x50176, .f32⟩
  | 20 => ⟨S64x3x50176, .f32⟩
  | 21 => ⟨S64x1x50176, .f32⟩
  | 22 => ⟨S64x3x50176, .f32⟩
  | 23 => ⟨S64x3x50176, .f32⟩
  | 24 => ⟨S64x3x50176, .f32⟩
  | 25 => ⟨S_, .f32⟩
  | 26 => ⟨S64x50176, .f32⟩
  | 27 => ⟨S64x50176, .f32⟩
  | 28 => ⟨S64x50176, .f32⟩
  | 29 => ⟨S64x50176, .f32⟩
  | 30 => ⟨S64x50176, .f32⟩
  | 31 => ⟨S_, .f32⟩
  | 32 => ⟨S64x50176, .f32⟩
  | 33 => ⟨S64x50176, .f32⟩
  | 34 => ⟨S64x50176, .f32⟩
  | 35 => ⟨S64x50176, .f32⟩
  | 36 => ⟨S_, .f32⟩
  | 37 => ⟨S64x50176, .f32⟩
  | 38 => ⟨S64x50176, .f32⟩
  | 39 => ⟨S64x50176, .f32⟩
  | 40 => ⟨S_, .f32⟩
  | 41 => ⟨S64x50176, .f32⟩
  | 42 => ⟨S64x50176, .f32⟩
  | 43 => ⟨S64x50176, .f32⟩
  | 44 => ⟨S64x50176, .i32⟩
  | 45 => ⟨S_, .i32⟩
  | 46 => ⟨S_, .i32⟩
  | 47 => ⟨S_, .i32⟩
  | 48 => ⟨S64x50176, .i32⟩
  | 49 => ⟨S64x50176, .i32⟩
  | 50 => ⟨S_, .i32⟩
  | 51 => ⟨S64x50176, .i32⟩
  | 52 => ⟨S64x50176, .i32⟩
  | 53 => ⟨S64x1x50176, .i32⟩
  | 54 => ⟨S_, .i32⟩
  | 55 => ⟨S64x1x50176, .i32⟩
  | 56 => ⟨S64x1x50176, .i1⟩
  | 57 => ⟨S_, .i32⟩
  | 58 => ⟨S64x1x50176, .i32⟩
  | 59 => ⟨S64x1x50176, .i32⟩
  | 60 => ⟨S64x1x50176, .i32⟩
  | 61 => ⟨S64x50176x1, .i32⟩
  | 62 => ⟨S1, .i32⟩
  | 63 => ⟨S_, .i32⟩
  | 64 => ⟨S64x50176x1, .i32⟩
  | 65 => ⟨S64x50176x1, .i1⟩
  | 66 => ⟨S1x1x1, .i32⟩
  | 67 => ⟨S64x50176x1, .i32⟩
  | 68 => ⟨S64x50176x1, .i1⟩
  | 69 => ⟨S64x50176x1, .i1⟩
  | 70 => ⟨S_, .i1⟩
  | 71 => ⟨S64x50176, .i1⟩
  | 72 => ⟨S64x3x50176, .f32⟩
  | 73 => ⟨S64x3x50176, .i1⟩
  | 74 => ⟨S_, .f32⟩
  | 75 => ⟨S64x3x50176, .f32⟩
  | 76 => ⟨S64x3x50176, .f32⟩
  | 77 => ⟨S64x1x50176, .f32⟩
  | 78 => ⟨S64x3x50176, .f32⟩
  | 79 => ⟨S64x3x50176, .f32⟩
  | 80 => ⟨S64x3x50176, .f32⟩
  | 81 => ⟨S64x3x224x224, .f32⟩
  | 82 => ⟨S64x3x224x224, .f32⟩
  | 83 => ⟨S64x3x224x224, .f32⟩
  | 84 => ⟨S64x3x224x224, .f32⟩
  | _ => ⟨S64x3x224x224, .f32⟩

abbrev hbmTy (i : Nat) : BufTy := match i / 128 with
  | 0 => hbmTy0_0 i
  | 1 => hbmTy0_1 i
  | 2 => hbmTy0_2 i
  | 3 => hbmTy0_3 i
  | _ => ⟨S64x3x224x224, .f32⟩

abbrev bufTy : (tb : Table) → Fin (tcTables nBuf tb) → BufTy
  | .hbm, ⟨i, _⟩ => hbmTy i
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_c_2 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v37 : Ref sig .tc := ⟨.hbm, 52, rfl⟩
abbrev main_v38 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_3 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_4 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_5 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_6 : Ref sig .tc := ⟨.hbm, 96, rfl⟩
abbrev main_c_7 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v56 : Ref sig .tc := ⟨.hbm, 103, rfl⟩
abbrev main_v57 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_call3_cst : Ref sig .tc := ⟨.hbm, 125, rfl⟩
abbrev main_call3_v15 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_8 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_9 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_10 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_c_11 : Ref sig .tc := ⟨.hbm, 148, rfl⟩
abbrev main_c_12 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_v76 : Ref sig .tc := ⟨.hbm, 155, rfl⟩
abbrev main_v77 : Ref sig .tc := ⟨.hbm, 156, rfl⟩
abbrev main_call5_c : Ref sig .tc := ⟨.hbm, 157, rfl⟩
abbrev main_call5_v0 : Ref sig .tc := ⟨.hbm, 158, rfl⟩
abbrev main_call5_v1 : Ref sig .tc := ⟨.hbm, 159, rfl⟩
abbrev main_call5_c_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_c_1 : Ref sig .tc := ⟨.hbm, 165, rfl⟩
abbrev main_call5_c_2 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_c_3 : Ref sig .tc := ⟨.hbm, 173, rfl⟩
abbrev main_call5_v12 : Ref sig .tc := ⟨.hbm, 174, rfl⟩
abbrev main_call5_v13 : Ref sig .tc := ⟨.hbm, 175, rfl⟩
abbrev main_call5_v14 : Ref sig .tc := ⟨.hbm, 176, rfl⟩
abbrev main_call5_cst : Ref sig .tc := ⟨.hbm, 177, rfl⟩
abbrev main_call5_v15 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_cst_13 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_cst_14 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_cst_15 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_cst_16 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_c_17 : Ref sig .tc := ⟨.hbm, 204, rfl⟩
abbrev main_c_18 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_v99 : Ref sig .tc := ⟨.hbm, 211, rfl⟩
abbrev main_v100 : Ref sig .tc := ⟨.hbm, 212, rfl⟩
abbrev main_call7_c : Ref sig .tc := ⟨.hbm, 213, rfl⟩
abbrev main_call7_v0 : Ref sig .tc := ⟨.hbm, 214, rfl⟩
abbrev main_call7_v1 : Ref sig .tc := ⟨.hbm, 215, rfl⟩
abbrev main_call7_c_0 : Ref sig .tc := ⟨.hbm, 216, rfl⟩
abbrev main_call7_v2 : Ref sig .tc := ⟨.hbm, 217, rfl⟩
abbrev main_call7_v3 : Ref sig .tc := ⟨.hbm, 218, rfl⟩
abbrev main_call7_v4 : Ref sig .tc := ⟨.hbm, 219, rfl⟩
abbrev main_call7_v5 : Ref sig .tc := ⟨.hbm, 220, rfl⟩
abbrev main_call7_c_1 : Ref sig .tc := ⟨.hbm, 221, rfl⟩
abbrev main_call7_c_2 : Ref sig .tc := ⟨.hbm, 222, rfl⟩
abbrev main_call7_v6 : Ref sig .tc := ⟨.hbm, 223, rfl⟩
abbrev main_call7_v7 : Ref sig .tc := ⟨.hbm, 224, rfl⟩
abbrev main_call7_v8 : Ref sig .tc := ⟨.hbm, 225, rfl⟩
abbrev main_call7_v9 : Ref sig .tc := ⟨.hbm, 226, rfl⟩
abbrev main_call7_v10 : Ref sig .tc := ⟨.hbm, 227, rfl⟩
abbrev main_call7_v11 : Ref sig .tc := ⟨.hbm, 228, rfl⟩
abbrev main_call7_c_3 : Ref sig .tc := ⟨.hbm, 229, rfl⟩
abbrev main_call7_v12 : Ref sig .tc := ⟨.hbm, 230, rfl⟩
abbrev main_call7_v13 : Ref sig .tc := ⟨.hbm, 231, rfl⟩
abbrev main_call7_v14 : Ref sig .tc := ⟨.hbm, 232, rfl⟩
abbrev main_call7_cst : Ref sig .tc := ⟨.hbm, 233, rfl⟩
abbrev main_call7_v15 : Ref sig .tc := ⟨.hbm, 234, rfl⟩
abbrev main_v101 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_cst_19 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_cst_20 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_cst_21 : Ref sig .tc := ⟨.hbm, 265, rfl⟩
abbrev main_v129 : Ref sig .tc := ⟨.hbm, 266, rfl⟩
abbrev main_v130 : Ref sig .tc := ⟨.hbm, 267, rfl⟩
abbrev main_v131 : Ref sig .tc := ⟨.hbm, 268, rfl⟩
abbrev main_v132 : Ref sig .tc := ⟨.hbm, 269, rfl⟩
abbrev main_c_22 : Ref sig .tc := ⟨.hbm, 270, rfl⟩
abbrev main_c_23 : Ref sig .tc := ⟨.hbm, 271, rfl⟩
abbrev main_call8_v0 : Ref sig .tc := ⟨.hbm, 272, rfl⟩
abbrev main_call8_v1 : Ref sig .tc := ⟨.hbm, 273, rfl⟩
abbrev main_call8_v2 : Ref sig .tc := ⟨.hbm, 274, rfl⟩
abbrev main_call8_v3 : Ref sig .tc := ⟨.hbm, 275, rfl⟩
abbrev main_call8_v4 : Ref sig .tc := ⟨.hbm, 276, rfl⟩
abbrev main_v133 : Ref sig .tc := ⟨.hbm, 277, rfl⟩
abbrev main_v134 : Ref sig .tc := ⟨.hbm, 278, rfl⟩
abbrev main_call9_c : Ref sig .tc := ⟨.hbm, 279, rfl⟩
abbrev main_call9_v0 : Ref sig .tc := ⟨.hbm, 280, rfl⟩
abbrev main_call9_v1 : Ref sig .tc := ⟨.hbm, 281, rfl⟩
abbrev main_call9_c_0 : Ref sig .tc := ⟨.hbm, 282, rfl⟩
abbrev main_call9_v2 : Ref sig .tc := ⟨.hbm, 283, rfl⟩
abbrev main_call9_v3 : Ref sig .tc := ⟨.hbm, 284, rfl⟩
abbrev main_call9_v4 : Ref sig .tc := ⟨.hbm, 285, rfl⟩
abbrev main_call9_v5 : Ref sig .tc := ⟨.hbm, 286, rfl⟩
abbrev main_call9_c_1 : Ref sig .tc := ⟨.hbm, 287, rfl⟩
abbrev main_call9_c_2 : Ref sig .tc := ⟨.hbm, 288, rfl⟩
abbrev main_call9_v6 : Ref sig .tc := ⟨.hbm, 289, rfl⟩
abbrev main_call9_v7 : Ref sig .tc := ⟨.hbm, 290, rfl⟩
abbrev main_call9_v8 : Ref sig .tc := ⟨.hbm, 291, rfl⟩
abbrev main_call9_v9 : Ref sig .tc := ⟨.hbm, 292, rfl⟩
abbrev main_call9_v10 : Ref sig .tc := ⟨.hbm, 293, rfl⟩
abbrev main_call9_v11 : Ref sig .tc := ⟨.hbm, 294, rfl⟩
abbrev main_call9_c_3 : Ref sig .tc := ⟨.hbm, 295, rfl⟩
abbrev main_call9_v12 : Ref sig .tc := ⟨.hbm, 296, rfl⟩
abbrev main_call9_v13 : Ref sig .tc := ⟨.hbm, 297, rfl⟩
abbrev main_call9_v14 : Ref sig .tc := ⟨.hbm, 298, rfl⟩
abbrev main_call9_cst : Ref sig .tc := ⟨.hbm, 299, rfl⟩
abbrev main_call9_v15 : Ref sig .tc := ⟨.hbm, 300, rfl⟩
abbrev main_v135 : Ref sig .tc := ⟨.hbm, 301, rfl⟩
abbrev main_v136 : Ref sig .tc := ⟨.hbm, 302, rfl⟩
abbrev main_v137 : Ref sig .tc := ⟨.hbm, 303, rfl⟩
abbrev main_v138 : Ref sig .tc := ⟨.hbm, 304, rfl⟩
abbrev main_v139 : Ref sig .tc := ⟨.hbm, 305, rfl⟩
abbrev main_v140 : Ref sig .tc := ⟨.hbm, 306, rfl⟩
abbrev main_cst_24 : Ref sig .tc := ⟨.hbm, 307, rfl⟩
abbrev main_v141 : Ref sig .tc := ⟨.hbm, 308, rfl⟩
abbrev main_v142 : Ref sig .tc := ⟨.hbm, 309, rfl⟩
abbrev main_v143 : Ref sig .tc := ⟨.hbm, 310, rfl⟩
abbrev main_v144 : Ref sig .tc := ⟨.hbm, 311, rfl⟩
abbrev main_cst_25 : Ref sig .tc := ⟨.hbm, 312, rfl⟩
abbrev main_v145 : Ref sig .tc := ⟨.hbm, 313, rfl⟩
abbrev main_v146 : Ref sig .tc := ⟨.hbm, 314, rfl⟩
abbrev main_v147 : Ref sig .tc := ⟨.hbm, 315, rfl⟩
abbrev main_cst_26 : Ref sig .tc := ⟨.hbm, 316, rfl⟩
abbrev main_v148 : Ref sig .tc := ⟨.hbm, 317, rfl⟩
abbrev main_v149 : Ref sig .tc := ⟨.hbm, 318, rfl⟩
abbrev main_v150 : Ref sig .tc := ⟨.hbm, 319, rfl⟩
abbrev main_v151 : Ref sig .tc := ⟨.hbm, 320, rfl⟩
abbrev main_c_27 : Ref sig .tc := ⟨.hbm, 321, rfl⟩
abbrev main_c_28 : Ref sig .tc := ⟨.hbm, 322, rfl⟩
abbrev main_call10_v0 : Ref sig .tc := ⟨.hbm, 323, rfl⟩
abbrev main_call10_v1 : Ref sig .tc := ⟨.hbm, 324, rfl⟩
abbrev main_call10_v2 : Ref sig .tc := ⟨.hbm, 325, rfl⟩
abbrev main_call10_v3 : Ref sig .tc := ⟨.hbm, 326, rfl⟩
abbrev main_call10_v4 : Ref sig .tc := ⟨.hbm, 327, rfl⟩
abbrev main_v152 : Ref sig .tc := ⟨.hbm, 328, rfl⟩
abbrev main_v153 : Ref sig .tc := ⟨.hbm, 329, rfl⟩
abbrev main_call11_c : Ref sig .tc := ⟨.hbm, 330, rfl⟩
abbrev main_call11_v0 : Ref sig .tc := ⟨.hbm, 331, rfl⟩
abbrev main_call11_v1 : Ref sig .tc := ⟨.hbm, 332, rfl⟩
abbrev main_call11_c_0 : Ref sig .tc := ⟨.hbm, 333, rfl⟩
abbrev main_call11_v2 : Ref sig .tc := ⟨.hbm, 334, rfl⟩
abbrev main_call11_v3 : Ref sig .tc := ⟨.hbm, 335, rfl⟩
abbrev main_call11_v4 : Ref sig .tc := ⟨.hbm, 336, rfl⟩
abbrev main_call11_v5 : Ref sig .tc := ⟨.hbm, 337, rfl⟩
abbrev main_call11_c_1 : Ref sig .tc := ⟨.hbm, 338, rfl⟩
abbrev main_call11_c_2 : Ref sig .tc := ⟨.hbm, 339, rfl⟩
abbrev main_call11_v6 : Ref sig .tc := ⟨.hbm, 340, rfl⟩
abbrev main_call11_v7 : Ref sig .tc := ⟨.hbm, 341, rfl⟩
abbrev main_call11_v8 : Ref sig .tc := ⟨.hbm, 342, rfl⟩
abbrev main_call11_v9 : Ref sig .tc := ⟨.hbm, 343, rfl⟩
abbrev main_call11_v10 : Ref sig .tc := ⟨.hbm, 344, rfl⟩
abbrev main_call11_v11 : Ref sig .tc := ⟨.hbm, 345, rfl⟩
abbrev main_call11_c_3 : Ref sig .tc := ⟨.hbm, 346, rfl⟩
abbrev main_call11_v12 : Ref sig .tc := ⟨.hbm, 347, rfl⟩
abbrev main_call11_v13 : Ref sig .tc := ⟨.hbm, 348, rfl⟩
abbrev main_call11_v14 : Ref sig .tc := ⟨.hbm, 349, rfl⟩
abbrev main_call11_cst : Ref sig .tc := ⟨.hbm, 350, rfl⟩
abbrev main_call11_v15 : Ref sig .tc := ⟨.hbm, 351, rfl⟩
abbrev main_v154 : Ref sig .tc := ⟨.hbm, 352, rfl⟩
abbrev main_v155 : Ref sig .tc := ⟨.hbm, 353, rfl⟩
abbrev main_v156 : Ref sig .tc := ⟨.hbm, 354, rfl⟩
abbrev main_v157 : Ref sig .tc := ⟨.hbm, 355, rfl⟩
abbrev main_v158 : Ref sig .tc := ⟨.hbm, 356, rfl⟩
abbrev main_v159 : Ref sig .tc := ⟨.hbm, 357, rfl⟩
abbrev main_v160 : Ref sig .tc := ⟨.hbm, 358, rfl⟩
abbrev main_cst_29 : Ref sig .tc := ⟨.hbm, 359, rfl⟩
abbrev main_v161 : Ref sig .tc := ⟨.hbm, 360, rfl⟩
abbrev main_v162 : Ref sig .tc := ⟨.hbm, 361, rfl⟩
abbrev main_v163 : Ref sig .tc := ⟨.hbm, 362, rfl⟩
abbrev main_v164 : Ref sig .tc := ⟨.hbm, 363, rfl⟩
abbrev main_cst_30 : Ref sig .tc := ⟨.hbm, 364, rfl⟩
abbrev main_v165 : Ref sig .tc := ⟨.hbm, 365, rfl⟩
abbrev main_v166 : Ref sig .tc := ⟨.hbm, 366, rfl⟩
abbrev main_v167 : Ref sig .tc := ⟨.hbm, 367, rfl⟩
abbrev main_cst_31 : Ref sig .tc := ⟨.hbm, 368, rfl⟩
abbrev main_v168 : Ref sig .tc := ⟨.hbm, 369, rfl⟩
abbrev main_v169 : Ref sig .tc := ⟨.hbm, 370, rfl⟩
abbrev main_v170 : Ref sig .tc := ⟨.hbm, 371, rfl⟩
abbrev main_v171 : Ref sig .tc := ⟨.hbm, 372, rfl⟩
abbrev main_c_32 : Ref sig .tc := ⟨.hbm, 373, rfl⟩
abbrev main_c_33 : Ref sig .tc := ⟨.hbm, 374, rfl⟩
abbrev main_call12_v0 : Ref sig .tc := ⟨.hbm, 375, rfl⟩
abbrev main_call12_v1 : Ref sig .tc := ⟨.hbm, 376, rfl⟩
abbrev main_call12_v2 : Ref sig .tc := ⟨.hbm, 377, rfl⟩
abbrev main_call12_v3 : Ref sig .tc := ⟨.hbm, 378, rfl⟩
abbrev main_call12_v4 : Ref sig .tc := ⟨.hbm, 379, rfl⟩
abbrev main_v172 : Ref sig .tc := ⟨.hbm, 380, rfl⟩
abbrev main_v173 : Ref sig .tc := ⟨.hbm, 381, rfl⟩
abbrev main_call13_c : Ref sig .tc := ⟨.hbm, 382, rfl⟩
abbrev main_call13_v0 : Ref sig .tc := ⟨.hbm, 383, rfl⟩
abbrev main_call13_v1 : Ref sig .tc := ⟨.hbm, 384, rfl⟩
abbrev main_call13_c_0 : Ref sig .tc := ⟨.hbm, 385, rfl⟩
abbrev main_call13_v2 : Ref sig .tc := ⟨.hbm, 386, rfl⟩
abbrev main_call13_v3 : Ref sig .tc := ⟨.hbm, 387, rfl⟩
abbrev main_call13_v4 : Ref sig .tc := ⟨.hbm, 388, rfl⟩
abbrev main_call13_v5 : Ref sig .tc := ⟨.hbm, 389, rfl⟩
abbrev main_call13_c_1 : Ref sig .tc := ⟨.hbm, 390, rfl⟩
abbrev main_call13_c_2 : Ref sig .tc := ⟨.hbm, 391, rfl⟩
abbrev main_call13_v6 : Ref sig .tc := ⟨.hbm, 392, rfl⟩
abbrev main_call13_v7 : Ref sig .tc := ⟨.hbm, 393, rfl⟩
abbrev main_call13_v8 : Ref sig .tc := ⟨.hbm, 394, rfl⟩
abbrev main_call13_v9 : Ref sig .tc := ⟨.hbm, 395, rfl⟩
abbrev main_call13_v10 : Ref sig .tc := ⟨.hbm, 396, rfl⟩
abbrev main_call13_v11 : Ref sig .tc := ⟨.hbm, 397, rfl⟩
abbrev main_call13_c_3 : Ref sig .tc := ⟨.hbm, 398, rfl⟩
abbrev main_call13_v12 : Ref sig .tc := ⟨.hbm, 399, rfl⟩
abbrev main_call13_v13 : Ref sig .tc := ⟨.hbm, 400, rfl⟩
abbrev main_call13_v14 : Ref sig .tc := ⟨.hbm, 401, rfl⟩
abbrev main_call13_cst : Ref sig .tc := ⟨.hbm, 402, rfl⟩
abbrev main_call13_v15 : Ref sig .tc := ⟨.hbm, 403, rfl⟩
abbrev main_v174 : Ref sig .tc := ⟨.hbm, 404, rfl⟩
abbrev main_v175 : Ref sig .tc := ⟨.hbm, 405, rfl⟩
abbrev main_v176 : Ref sig .tc := ⟨.hbm, 406, rfl⟩
abbrev main_v177 : Ref sig .tc := ⟨.hbm, 407, rfl⟩
abbrev main_v178 : Ref sig .tc := ⟨.hbm, 408, rfl⟩
abbrev main_cst_34 : Ref sig .tc := ⟨.hbm, 409, rfl⟩
abbrev main_v179 : Ref sig .tc := ⟨.hbm, 410, rfl⟩
abbrev main_v180 : Ref sig .tc := ⟨.hbm, 411, rfl⟩
abbrev main_v181 : Ref sig .tc := ⟨.hbm, 412, rfl⟩
abbrev main_v182 : Ref sig .tc := ⟨.hbm, 413, rfl⟩
abbrev main_v183 : Ref sig .tc := ⟨.hbm, 414, rfl⟩
abbrev main_cst_35 : Ref sig .tc := ⟨.hbm, 415, rfl⟩
abbrev main_v184 : Ref sig .tc := ⟨.hbm, 416, rfl⟩
abbrev main_v185 : Ref sig .tc := ⟨.hbm, 417, rfl⟩
abbrev main_v186 : Ref sig .tc := ⟨.hbm, 418, rfl⟩
abbrev main_v187 : Ref sig .tc := ⟨.hbm, 419, rfl⟩
abbrev main_cst_36 : Ref sig .tc := ⟨.hbm, 420, rfl⟩
abbrev main_v188 : Ref sig .tc := ⟨.hbm, 421, rfl⟩
abbrev main_v189 : Ref sig .tc := ⟨.hbm, 422, rfl⟩
abbrev main_v190 : Ref sig .tc := ⟨.hbm, 423, rfl⟩
abbrev main_cst_37 : Ref sig .tc := ⟨.hbm, 424, rfl⟩
abbrev main_v191 : Ref sig .tc := ⟨.hbm, 425, rfl⟩
abbrev main_v192 : Ref sig .tc := ⟨.hbm, 426, rfl⟩
abbrev main_v193 : Ref sig .tc := ⟨.hbm, 427, rfl⟩
abbrev main_v194 : Ref sig .tc := ⟨.hbm, 428, rfl⟩
abbrev main_c_38 : Ref sig .tc := ⟨.hbm, 429, rfl⟩
abbrev main_c_39 : Ref sig .tc := ⟨.hbm, 430, rfl⟩
abbrev main_call14_v0 : Ref sig .tc := ⟨.hbm, 431, rfl⟩
abbrev main_call14_v1 : Ref sig .tc := ⟨.hbm, 432, rfl⟩
abbrev main_call14_v2 : Ref sig .tc := ⟨.hbm, 433, rfl⟩
abbrev main_call14_v3 : Ref sig .tc := ⟨.hbm, 434, rfl⟩
abbrev main_call14_v4 : Ref sig .tc := ⟨.hbm, 435, rfl⟩
abbrev main_v195 : Ref sig .tc := ⟨.hbm, 436, rfl⟩
abbrev main_v196 : Ref sig .tc := ⟨.hbm, 437, rfl⟩
abbrev main_call15_c : Ref sig .tc := ⟨.hbm, 438, rfl⟩
abbrev main_call15_v0 : Ref sig .tc := ⟨.hbm, 439, rfl⟩
abbrev main_call15_v1 : Ref sig .tc := ⟨.hbm, 440, rfl⟩
abbrev main_call15_c_0 : Ref sig .tc := ⟨.hbm, 441, rfl⟩
abbrev main_call15_v2 : Ref sig .tc := ⟨.hbm, 442, rfl⟩
abbrev main_call15_v3 : Ref sig .tc := ⟨.hbm, 443, rfl⟩
abbrev main_call15_v4 : Ref sig .tc := ⟨.hbm, 444, rfl⟩
abbrev main_call15_v5 : Ref sig .tc := ⟨.hbm, 445, rfl⟩
abbrev main_call15_c_1 : Ref sig .tc := ⟨.hbm, 446, rfl⟩
abbrev main_call15_c_2 : Ref sig .tc := ⟨.hbm, 447, rfl⟩
abbrev main_call15_v6 : Ref sig .tc := ⟨.hbm, 448, rfl⟩
abbrev main_call15_v7 : Ref sig .tc := ⟨.hbm, 449, rfl⟩
abbrev main_call15_v8 : Ref sig .tc := ⟨.hbm, 450, rfl⟩
abbrev main_call15_v9 : Ref sig .tc := ⟨.hbm, 451, rfl⟩
abbrev main_call15_v10 : Ref sig .tc := ⟨.hbm, 452, rfl⟩
abbrev main_call15_v11 : Ref sig .tc := ⟨.hbm, 453, rfl⟩
abbrev main_call15_c_3 : Ref sig .tc := ⟨.hbm, 454, rfl⟩
abbrev main_call15_v12 : Ref sig .tc := ⟨.hbm, 455, rfl⟩
abbrev main_call15_v13 : Ref sig .tc := ⟨.hbm, 456, rfl⟩
abbrev main_call15_v14 : Ref sig .tc := ⟨.hbm, 457, rfl⟩
abbrev main_call15_cst : Ref sig .tc := ⟨.hbm, 458, rfl⟩
abbrev main_call15_v15 : Ref sig .tc := ⟨.hbm, 459, rfl⟩
abbrev main_v197 : Ref sig .tc := ⟨.hbm, 460, rfl⟩
abbrev main_v198 : Ref sig .tc := ⟨.hbm, 461, rfl⟩
abbrev main_v199 : Ref sig .tc := ⟨.hbm, 462, rfl⟩
abbrev main_v200 : Ref sig .tc := ⟨.hbm, 463, rfl⟩
abbrev main_v201 : Ref sig .tc := ⟨.hbm, 464, rfl⟩
abbrev main_v202 : Ref sig .tc := ⟨.hbm, 465, rfl⟩
abbrev main_v203 : Ref sig .tc := ⟨.hbm, 466, rfl⟩
abbrev main_v204 : Ref sig .tc := ⟨.hbm, 467, rfl⟩
abbrev main_v205 : Ref sig .tc := ⟨.hbm, 468, rfl⟩

abbrev nD : Nat := 1
abbrev τ : Topo := Topo.v7x

variable {F : FTy → Type} [FloatOps F]

class Facts₀ : Prop where
  bcast_S224_S224x224_0 : S224.BroadcastsInDim S224x224 (![0] : Fin 1 → Fin S224x224.rank)
  shapeCasts_S224x224_S50176 : S224x224.ShapeCasts S50176
  shapeCasts_S224_S1x224 : S224.ShapeCasts S1x224
  bcast_S1x224_S224x224_0_1 : S1x224.BroadcastsInDim S224x224 (![0, 1] : Fin 2 → Fin S224x224.rank)
  bcast_S50176_S1x50176_1 : S50176.BroadcastsInDim S1x50176 (![1] : Fin 1 → Fin S1x50176.rank)
  concatenates_S1x50176_S1x50176_S2x50176_d0 : Shape.Concatenates [S1x50176, S1x50176] S2x50176 0
  bcast_S2x50176_S1x2x50176_1_2 : S2x50176.BroadcastsInDim S1x2x50176 (![1, 2] : Fin 2 → Fin S1x2x50176.rank)
  shapeCasts_S64x2x224x224_S64x2x50176 : S64x2x224x224.ShapeCasts S64x2x50176
  shapeCasts_S64x3x224x224_S64x3x50176 : S64x3x224x224.ShapeCasts S64x3x50176
  bcast_S1x2x50176_S64x2x50176_0_1_2 : S1x2x50176.BroadcastsInDim S64x2x50176 (![0, 1, 2] : Fin 3 → Fin S64x2x50176.rank)
  slices_S64x2x50176_S64x1x50176_0_0_0 : S64x2x50176.Slices ![0, 0, 0] S64x1x50176
  shapeCasts_S64x1x50176_S64x50176 : S64x1x50176.ShapeCasts S64x50176
  slices_S64x2x50176_S64x1x50176_0_1_0 : S64x2x50176.Slices ![0, 1, 0] S64x1x50176
  bcast_S_S64x50176 : S_.BroadcastsInDim S64x50176 (![] : Fin 0 → Fin S64x50176.rank)
  bcast_S64x50176_S64x1x50176_0_2 : S64x50176.BroadcastsInDim S64x1x50176 (![0, 2] : Fin 2 → Fin S64x1x50176.rank)
  bcast_S_S64x1x50176 : S_.BroadcastsInDim S64x1x50176 (![] : Fin 0 → Fin S64x1x50176.rank)
  shapeCasts_S64x1x50176_S64x50176x1 : S64x1x50176.ShapeCasts S64x50176x1
  bcast_S_S64x50176x1 : S_.BroadcastsInDim S64x50176x1 (![] : Fin 0 → Fin S64x50176x1.rank)
  bcast_S1_S1x1x1_2 : S1.BroadcastsInDim S1x1x1 (![2] : Fin 1 → Fin S1x1x1.rank)
  bcast_S1x1x1_S64x50176x1_0_1_2 : S1x1x1.BroadcastsInDim S64x50176x1 (![0, 1, 2] : Fin 3 → Fin S64x50176x1.rank)
  reducesTo_S64x50176x1_S64x50176_d2 : S64x50176x1.ReducesTo [2] S64x50176
  h_S_ : 0 < S_.numel
  bcast_S64x50176_S64x3x50176_0_2 : S64x50176.BroadcastsInDim S64x3x50176 (![0, 2] : Fin 2 → Fin S64x3x50176.rank)
  bcast_S_S64x3x50176 : S_.BroadcastsInDim S64x3x50176 (![] : Fin 0 → Fin S64x3x50176.rank)
  bcast_S64x1x50176_S64x3x50176_0_1_2 : S64x1x50176.BroadcastsInDim S64x3x50176 (![0, 1, 2] : Fin 3 → Fin S64x3x50176.rank)
  shapeCasts_S64x3x50176_S64x3x224x224 : S64x3x50176.ShapeCasts S64x3x224x224
  bcast_S64x1x224x224_S64x3x224x224_0_1_2_3 : S64x1x224x224.BroadcastsInDim S64x3x224x224 (![0, 1, 2, 3] : Fin 4 → Fin S64x3x224x224.rank)
  gather_S64x3x50176_S64x50176x1_S64x3x50176_1_2_0_0_2_2_131_wf : GatherDims.WF S64x3x50176 S64x50176x1 S64x3x50176 [1] [2] [0] [2] [0] 2 ![1, 3, 1]

variable [Facts₀]

def gather_S64x3x50176_S64x50176x1_S64x3x50176_1_2_0_0_2_2_131 : GatherDims S64x3x50176 S64x50176x1 S64x3x50176 where
  offsetDims := [1]
  collapsedSliceDims := [2]
  operandBatchingDims := [0]
  startIndicesBatchingDims := [0]
  startIndexMap := [2]
  indexVectorDim := 2
  sliceSizes := ![1, 3, 1]
  wf := gather_S64x3x50176_S64x50176x1_S64x3x50176_1_2_0_0_2_2_131_wf

class Facts : Prop extends Facts₀ where

variable [Facts]
-- ==== Proof.RefArgs.lean ====
/-
  The reference writes none of its five arguments.

  Every operation of the reference writes its own result buffer only, and no result buffer is an argument; read back
  from the last operation, each argument's buffer therefore holds its launch contents after the whole line.
-/
import proofs.«140426_j50826642981119_2_alg».proof.Proof.RunP

noncomputable section

namespace Cert.WarpEq

open Idealize.ShloMosaic Idealize.ShloMosaic.TcCoe Idealize.SL.Sem Idealize.ShloMosaic.StableHlo

variable {F : FTy → Type} [FloatOps F]

set_option maxHeartbeats 40000000 in
/-- No line of the reference writes its argument 0: after the whole line the buffer holds what it was launched with. -/
theorem arg0_kept (m' : (ℓ : Loc Cert.ReferenceIdeal.nD Cert.ReferenceIdeal.τ Cert.ReferenceIdeal.sig) → Buf (Elt F) ℓ) (c : Dev Cert.ReferenceIdeal.nD) :
    after (Cert.ReferenceIdeal.ValueP.ops (F := F)) (launchContents m' c) (Proc.devRef .tc Cert.ReferenceIdeal.main_arg0)
      = m' ((c.tc : Thread Cert.ReferenceIdeal.nD Cert.ReferenceIdeal.τ).loc Cert.ReferenceIdeal.main_arg0) := by
  after_results_simp <;> rfl

set_option maxHeartbeats 40000000 in
/-- No line of the reference writes its argument 1: after the whole line the buffer holds what it was launched with. -/
theorem arg1_kept (m' : (ℓ : Loc Cert.ReferenceIdeal.nD Cert.ReferenceIdeal.τ Cert.ReferenceIdeal.sig) → Buf (Elt F) ℓ) (c : Dev Cert.ReferenceIdeal.nD) :
    after (Cert.ReferenceIdeal.ValueP.ops (F := F)) (launchContents m' c) (Proc.devRef .tc Cert.ReferenceIdeal.main_arg1)
      = m' ((c.tc : Thread Cert.ReferenceIdeal.nD Cert.ReferenceIdeal.τ).loc Cert.ReferenceIdeal.main_arg1) := by
  after_results_simp <;> rfl

set_option maxHeartbeats 40000000 in
/-- No line of the reference writes its argument 2: after the whole line the buffer holds what it was launched with. -/
theorem arg2_kept (m' : (ℓ : Loc Cert.ReferenceIdeal.nD Cert.ReferenceIdeal.τ Cert.ReferenceIdeal.sig) → Buf (Elt F) ℓ) (c : Dev Cert.ReferenceIdeal.nD) :
    after (Cert.ReferenceIdeal.ValueP.ops (F := F)) (launchContents m' c) (Proc.devRef .tc Cert.ReferenceIdeal.main_arg2)
      = m' ((c.tc : Thread Cert.ReferenceIdeal.nD Cert.ReferenceIdeal.τ).loc Cert.ReferenceIdeal.main_arg2) := by
  after_results_simp <;> rfl

set_option maxHeartbeats 40000000 in
/-- No line of the reference writes its argument 3: after the whole line the buffer holds what it was launched with. -/
theorem arg3_kept (m' : (ℓ : Loc Cert.ReferenceIdeal.nD Cert.ReferenceIdeal.τ Cert.ReferenceIdeal.sig) → Buf (Elt F) ℓ) (c : Dev Cert.ReferenceIdeal.nD) :
    after (Cert.ReferenceIdeal.ValueP.ops (F := F)) (launchContents m' c) (Proc.devRef .tc Cert.ReferenceIdeal.main_arg3)
      = m' ((c.tc : Thread Cert.ReferenceIdeal.nD Cert.ReferenceIdeal.τ).loc Cert.ReferenceIdeal.main_arg3) := by
  after_results_simp <;> rfl

set_option maxHeartbeats 40000000 in
/-- No line of the reference writes its argument 4: after the whole line the buffer holds what it was launched with. -/
theorem arg4_kept (m' : (ℓ : Loc Cert.ReferenceIdeal.nD Cert.ReferenceIdeal.τ Cert.ReferenceIdeal.sig) → Buf (Elt F) ℓ) (c : Dev Cert.ReferenceIdeal.nD) :
    after (Cert.ReferenceIdeal.ValueP.ops (F := F)) (launchContents m' c) (Proc.devRef .tc Cert.ReferenceIdeal.main_arg4)
      = m' ((c.tc : Thread Cert.ReferenceIdeal.nD Cert.ReferenceIdeal.τ).loc Cert.ReferenceIdeal.main_arg4) := by
  after_results_simp <;> rfl

end Cert.WarpEq

end
-- ==== Proof.RefRun.lean ====
/-
  The reference's run.

  The reference is a straight line of host operations with no kernel launch: every weakly fair execution runs them
  in order and terminates, and each TensorCore buffer ends at what the line leaves in it from the launch contents.
-/
import proofs.«140426_j50826642981119_2_alg».proof.Proof.RunP
import Idealize.ShloMosaic.PureOps.Ideal

noncomputable section

namespace Cert.WarpEq

open Idealize.ShloMosaic Idealize.ShloMosaic.TcCoe Idealize.SL.Sem Idealize.ShloMosaic.StableHlo

set_option maxRecDepth 262144 in
set_option maxHeartbeats 40000000 in
/-- Every weakly fair execution of the reference terminates with each buffer at the line's result for it. -/
theorem reference_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r =>
      ∀ (d : Dev Cert.ReferenceIdeal.nD) (b : Ref Cert.ReferenceIdeal.sig .tc),
        r.2.mem ((d.tc : Thread Cert.ReferenceIdeal.nD Cert.ReferenceIdeal.τ).loc b)
          = after (Cert.ReferenceIdeal.ValueP.ops (F := Ideal)) (launchContents m' d) (Proc.devRef .tc b) :=
  run_seq Cert.ReferenceIdeal.ValueP.scopedRefs_eq Cert.ReferenceIdeal.ValueP.scopedSems_eq (Cert.ReferenceIdeal.defs (F := Ideal)) (Cert.ReferenceIdeal.main (F := Ideal))
    (fun _ => Cert.ReferenceIdeal.ValueP.ops) Cert.ReferenceIdeal.ValueP.main_eq (fun _ => Cert.ReferenceIdeal.ValueP.ops_sub) m' ρ'

end Cert.WarpEq

end
-- ==== Proof.Payload.lean ====
/-
  The body of the combining kernel, read at one entry.

  At a grid point the body loads a block `a` and a block `b` of the two warped images, each [8, 3, 12544]
  (8 batch entries, 3 channels, 12544 pixels), and a block `m1` and a block `m2` of the two masks, each [8, 12544].
  Each mask block is given a unit channel axis and spread over the 3 channels, and the body stores
  `a * m1 + b * m2`.  Read at batch entry `n`, channel `ch` and pixel `l` this is
  `a(n, ch, l) * m1(n, l) + b(n, ch, l) * m2(n, l)`: the reshapes of a block to its own shape are the identity,
  the reshape [8, 12544] → [8, 1, 12544] keeps the row-major position, and the spread over the channels reads
  channel 0 of the unit axis.
-/
import proofs.«140426_j50826642981119_2_alg».proof.Proof.Gen.KernelIdeal.Skeleton
import Idealize.ShloMosaic.PureOps.Ideal
import Idealize.ShloMosaic.Lib.ValueIdx
import Idealize.ShloMosaic.Lib.Pipeline.Value

noncomputable section

namespace Cert.KernelIdeal.Combine

open Idealize.ShloMosaic Idealize.ShloMosaic.ValueIdx Cert.KernelIdeal Cert.KernelIdeal.Gen

/-- A mask block [8, 12544] given a unit channel axis and spread over the 3 channels, read at (n, ch, l), is the
    block at (n, l). -/
theorem spread_apply {α : Type} (x : S8x12544.Idx → α) (n : Fin 8) (ch : Fin 3) (l : Fin 12544) :
    broadcastTo S8x3x12544
      (shapeCast S8x1x12544
        (shapeCast S8x1x12544 (shapeCast S8x12544 x shapeCasts_S8x12544_S8x12544) shapeCasts_S8x12544_S8x1x12544)
        shapeCasts_S8x1x12544_S8x1x12544)
      broadcasts_S8x1x12544_S8x3x12544 (ix3 n ch l) = x (ix2 n l) := by
  rw [shapeCast_self x shapeCasts_S8x12544_S8x12544, shapeCast_self _ shapeCasts_S8x1x12544_S8x1x12544]
  refine (broadcastTo_apply _ broadcasts_S8x1x12544_S8x3x12544 (ix3 n ch l) (ix3 n (0 : Fin 1) l) ?_).trans ?_
  · intro a
    match a with
    | ⟨0, _⟩ => show n.val = if (8 : Nat) = 1 then 0 else n.val; rw [if_neg (by decide)]
    | ⟨1, _⟩ => show (0 : Nat) = if (1 : Nat) = 1 then 0 else ch.val; rw [if_pos rfl]
    | ⟨2, _⟩ => show l.val = if (12544 : Nat) = 1 then 0 else l.val; rw [if_neg (by decide)]
  · exact shapeCast_apply x shapeCasts_S8x12544_S8x1x12544 (ix3 n (0 : Fin 1) l) (ix2 n l)
      (by rewrite [Shape.rowMajor_val_two, Shape.rowMajor_val_three]
          show n.val * 12544 + l.val = (n.val * 1 + 0) * 12544 + l.val; omega)

/-- The stored value at (n, ch, l): each warped block's entry times its mask block's entry at (n, l), added. -/
theorem pay_apply (a b : Vec Ideal S8x3x12544 .f32) (m1 m2 : Vec Ideal S8x12544 .f32)
    (n : Fin 8) (ch : Fin 3) (l : Fin 12544) :
    k0_pay1 (F := Ideal) a b m1 m2 (ix3 n ch l)
      = a (ix3 n ch l) * m1 (ix2 n l) + b (ix3 n ch l) * m2 (ix2 n l) := by
  unfold k0_pay1
  rw [addf_apply, mulf_apply, mulf_apply, spread_apply, spread_apply,
    shapeCast_self a shapeCasts_S8x3x12544_S8x3x12544, shapeCast_self b shapeCasts_S8x3x12544_S8x3x12544]

end Cert.KernelIdeal.Combine

end
-- ==== Proof.Spec.lean ====
/-
  The result of both programs as one function, and why the two spellings of it agree.

  `A`, `B` are the two warped images as arrays [64, 3, 50176] (batch, channel, pixel = 224·row + column) and
  `M1`, `M2` the two masks as given, [64, 1, 224, 224].

  The kernel's program flattens each mask to [64, 50176], forms `A * M1 + B * M2` on the flat arrays (the mask entry
  of a pixel used for all 3 channels: `combine`), and reshapes the result to [64, 3, 224, 224].  The reference
  reshapes each warped image to [64, 3, 224, 224] first, spreads each mask over the 3 channels, and multiplies and
  adds there.  A reshape between [.., 50176] and [.., 224, 224] keeps the row-major position, so entry
  (n, ch, y, x) of either result is `A(n, ch, 224y + x) * M1(n, 0, y, x) + B(n, ch, 224y + x) * M2(n, 0, y, x)`:
  the same products and the same sum, so no property of the extended reals beyond that is used.
-/
import Idealize.ShloMosaic.PureOps.Ideal
import Idealize.ShloMosaic.Lib.ValueIdx
import Idealize.ShloMosaic.Lib.Pipeline.Value

noncomputable section

namespace Cert.CombineSpec

open Idealize.ShloMosaic Idealize.ShloMosaic.ValueIdx

abbrev Flat3 : Shape := ⟨3, ![64, 3, 50176]⟩
abbrev Flat2 : Shape := ⟨2, ![64, 50176]⟩
abbrev Img4 : Shape := ⟨4, ![64, 3, 224, 224]⟩
abbrev Mask4 : Shape := ⟨4, ![64, 1, 224, 224]⟩

/-- The result on the flat arrays: at (n, ch, p) it is `A(n, ch, p) * M1(n, p) + B(n, ch, p) * M2(n, p)`. -/
def combine (A B : Flat3.Idx → EReal) (M1 M2 : Flat2.Idx → EReal) : Flat3.Idx → EReal :=
  fun i => A i * M1 (ix2 (n0 := 64) (n1 := 50176) (i 0) (i 2)) + B i * M2 (ix2 (n0 := 64) (n1 := 50176) (i 0) (i 2))

theorem combine_apply (A B : Flat3.Idx → EReal) (M1 M2 : Flat2.Idx → EReal) (n : Fin 64) (ch : Fin 3) (p : Fin 50176) :
    combine A B M1 M2 (ix3 n ch p) = A (ix3 n ch p) * M1 (ix2 n p) + B (ix3 n ch p) * M2 (ix2 n p) := rfl

/-- `combine` at a position, from its four factors read at positions known to be that one and its (batch, pixel). -/
theorem combine_at (A B : Flat3.Idx → EReal) (M1 M2 : Flat2.Idx → EReal) (e0 e1 e4 : Flat3.Idx) (e2 e3 : Flat2.Idx)
    (h0 : e0 = e4) (h1 : e1 = e4) (h2 : e2 = ix2 (n0 := 64) (n1 := 50176) (e4 0) (e4 2))
    (h3 : e3 = ix2 (n0 := 64) (n1 := 50176) (e4 0) (e4 2)) :
    A e0 * M1 e2 + B e1 * M2 e3 = combine A B M1 M2 e4 := by
  subst h0 h1 h2 h3; rfl

/-- The pixel 224·y + x of row y, column x. -/
abbrev pix (y x : Fin 224) : Fin 50176 := ⟨y.val * 224 + x.val, by have := y.isLt; have := x.isLt; omega⟩

/-- A flat image reshaped to [64, 3, 224, 224], read at (n, ch, y, x), is the flat image at (n, ch, 224y + x). -/
theorem unflatten_apply {α : Type} (A : Flat3.Idx → α) (h : Flat3.ShapeCasts Img4) (n : Fin 64) (ch : Fin 3) (y x : Fin 224) :
    shapeCast Img4 A h (ix4 n ch y x) = A (ix3 n ch (pix y x)) :=
  shapeCast_apply A h (ix4 n ch y x) (ix3 n ch (pix y x))
    (by rewrite [Shape.rowMajor_val_three, Shape.rowMajor_val_four]
        show (n.val * 3 + ch.val) * 50176 + (y.val * 224 + x.val) = ((n.val * 3 + ch.val) * 224 + y.val) * 224 + x.val
        omega)

/-- A mask flattened to [64, 50176], read at (n, 224y + x), is the mask at (n, 0, y, x). -/
theorem flatten_mask_apply {α : Type} (M : Mask4.Idx → α) (h : Mask4.ShapeCasts Flat2) (n : Fin 64) (y x : Fin 224) :
    shapeCast Flat2 M h (ix2 n (pix y x)) = M (ix4 n (0 : Fin 1) y x) :=
  shapeCast_apply M h (ix2 n (pix y x)) (ix4 n (0 : Fin 1) y x)
    (by rewrite [Shape.rowMajor_val_four, Shape.rowMajor_val_two]
        show ((n.val * 1 + 0) * 224 + y.val) * 224 + x.val = n.val * 50176 + (y.val * 224 + x.val)
        omega)

/-- A mask spread over the 3 channels, read at (n, ch, y, x), is the mask at (n, 0, y, x). -/
theorem spread_mask_apply {α : Type} (M : Mask4.Idx → α) (h : Mask4.BroadcastsInDim Img4 ![0, 1, 2, 3])
    (n : Fin 64) (ch : Fin 3) (y x : Fin 224) :
    broadcastInDim Img4 ![0, 1, 2, 3] h M (ix4 n ch y x) = M (ix4 n (0 : Fin 1) y x) :=
  broadcastInDim_apply _ h M (ix4 n ch y x) (ix4 n (0 : Fin 1) y x) (fun a => match a with
    | ⟨0, _⟩ => by show n.val = if (64 : Nat) = 1 then 0 else n.val; rw [if_neg (by decide)]
    | ⟨1, _⟩ => by show (0 : Nat) = if (1 : Nat) = 1 then 0 else ch.val; rw [if_pos rfl]
    | ⟨2, _⟩ => by show y.val = if (224 : Nat) = 1 then 0 else y.val; rw [if_neg (by decide)]
    | ⟨3, _⟩ => by show x.val = if (224 : Nat) = 1 then 0 else x.val; rw [if_neg (by decide)])

/-- The reference's spelling (reshape the warped images, spread the masks, multiply, add) is the kernel program's
    (flatten the masks, `combine`, reshape the result). -/
theorem reshaped_combine (A B : Flat3.Idx → EReal) (M1 M2 : Mask4.Idx → EReal)
    (hA : Flat3.ShapeCasts Img4) (hb : Mask4.BroadcastsInDim Img4 ![0, 1, 2, 3]) (hM : Mask4.ShapeCasts Flat2) :
    addf (F := Ideal) (φ := .f32) (mulf (F := Ideal) (φ := .f32) (shapeCast Img4 A hA) (broadcastInDim Img4 ![0, 1, 2, 3] hb M1))
        (mulf (F := Ideal) (φ := .f32) (shapeCast Img4 B hA) (broadcastInDim Img4 ![0, 1, 2, 3] hb M2))
      = shapeCast Img4 (combine A B (shapeCast Flat2 M1 hM) (shapeCast Flat2 M2 hM)) hA := by
  funext i
  obtain ⟨n, ch, y, x, rfl⟩ : ∃ (n : Fin 64) (ch : Fin 3) (y x : Fin 224), i = ix4 n ch y x :=
    ⟨i 0, i 1, i 2, i 3, eq_ix4 i⟩
  rw [addf_apply, mulf_apply, mulf_apply, unflatten_apply, unflatten_apply, spread_mask_apply, spread_mask_apply,
    unflatten_apply, combine_apply, flatten_mask_apply, flatten_mask_apply]

end Cert.CombineSpec

end
-- ==== Proof.Blocks.lean ====
/-
  From the blocks the combining kernel writes back to the whole result array.

  The grid is 8 × 4: point (i, j) handles batch entries 8i … 8i+7 and pixels 12544j … 12544j+12543, all 3 channels.
  The two warped images and the result are cut into blocks [8, 3, 12544] at block position (i, 0, j), the two masks
  into blocks [8, 12544] at block position (i, j).  So entry (n, ch, l) of the block a point writes back sits at
  (8i + n, ch, 12544j + l) of the result, and is computed from the warped images at that same position and the masks
  at (8i + n, 12544j + l).  Every position of the result lies in exactly the block of the point
  (its batch entry / 8, its pixel / 12544), so after the run the result array is the one function `combine` of the
  four arrays the region reads: warped image times mask, added, position by position.
-/
import proofs.«140426_j50826642981119_2_alg».proof.Proof.Gen.KernelIdeal.Frame
import proofs.«140426_j50826642981119_2_alg».proof.Proof.Payload
import proofs.«140426_j50826642981119_2_alg».proof.Proof.Spec
import Idealize.ShloMosaic.Lib.Pipeline.Value

noncomputable section

namespace Cert.KernelIdeal.Combine

open Idealize.ShloMosaic Idealize.ShloMosaic.TcCoe Idealize.SL.Sem Idealize.ShloMosaic.ValueIdx
open Idealize.ShloMosaic.Pipeline (Dat)
open Cert.KernelIdeal Cert.KernelIdeal.Gen Cert.CombineSpec

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The block positions, decided over the 32 grid points: the warped images' blocks sit where the result's block
    sits, the masks' blocks at its batch and pixel positions, and the channel position is 0. -/
theorem block_positions : ∀ t : Fin cfg0.N,
    win0_0.index t (0 : Fin 3) = win0_4.index t (0 : Fin 3)
    ∧ win0_0.index t (1 : Fin 3) = win0_4.index t (1 : Fin 3)
    ∧ win0_0.index t (2 : Fin 3) = win0_4.index t (2 : Fin 3)
    ∧ win0_1.index t (0 : Fin 3) = win0_4.index t (0 : Fin 3)
    ∧ win0_1.index t (1 : Fin 3) = win0_4.index t (1 : Fin 3)
    ∧ win0_1.index t (2 : Fin 3) = win0_4.index t (2 : Fin 3)
    ∧ win0_2.index t (0 : Fin 2) = win0_4.index t (0 : Fin 3)
    ∧ win0_2.index t (1 : Fin 2) = win0_4.index t (2 : Fin 3)
    ∧ win0_3.index t (0 : Fin 2) = win0_4.index t (0 : Fin 3)
    ∧ win0_3.index t (1 : Fin 2) = win0_4.index t (2 : Fin 3) :=
  (by decide +kernel : ∀ t : Fin grid0.N, _)

/-- Every block position (i, 0, j), i < 8, j < 4, is some grid point's. -/
theorem block_onto : ∀ (q0 : Fin 8) (q2 : Fin 4), ∃ t : Fin cfg0.N, win0_4.index t = ![q0.val, 0, q2.val] :=
  (by decide +kernel : ∀ (q0 : Fin 8) (q2 : Fin 4), ∃ t : Fin grid0.N, win0_4.index t = ![q0.val, 0, q2.val])

/-- For ANY four arrays in place of the ones the region reads: the body's result on their blocks at point `t`
    is block `t` of `combine` of the arrays.  (Stated over variables, so that it says nothing of how the program's
    arrays were computed.) -/
theorem block_combine (t : Fin cfg0.N) (X0 X1 : Flat3.Idx → EReal) (X2 X3 : Flat2.Idx → EReal) :
    (cfg0.win 4).cut (grid0.coords t)
        (out0_4 (((cfg0.win 0).blk t).view.read (Elt Ideal) X0) (((cfg0.win 1).blk t).view.read (Elt Ideal) X1)
          (((cfg0.win 2).blk t).view.read (Elt Ideal) X2) (((cfg0.win 3).blk t).view.read (Elt Ideal) X3))
      = ((cfg0.win 4).blk t).view.read (Elt Ideal) (combine X0 X1 X2 X3) := by
  unfold out0_4
  rw [View.canon_unit_zero zero3]
  simp only [View.ld_unit_zero (S := S8x3x12544) zero3, View.ld_unit_zero (S := S8x12544) zero2]
  obtain ⟨e00, e01, e02, e10, e11, e12, e20, e21, e30, e31⟩ := block_positions t
  funext j
  obtain ⟨n, ch, l, rfl⟩ : ∃ (n : Fin 8) (ch : Fin 3) (l : Fin 12544), j = ix3 n ch l := ⟨j 0, j 1, j 2, eq_ix3 j⟩
  refine (pay_apply (((cfg0.win 0).blk t).view.read (Elt Ideal) X0) (((cfg0.win 1).blk t).view.read (Elt Ideal) X1)
    (((cfg0.win 2).blk t).view.read (Elt Ideal) X2) (((cfg0.win 3).blk t).view.read (Elt Ideal) X3) n ch l).trans ?_
  have h0 : ((cfg0.win 0).blk t).view.emb (ix3 n ch l) = ((cfg0.win 4).blk t).view.emb (ix3 n ch l) := by
    funext a; apply Fin.ext
    match a with
    | ⟨0, _⟩ => show win0_0.index t (0 : Fin 3) * 8 + 1 * n.val = win0_4.index t (0 : Fin 3) * 8 + 1 * n.val; omega
    | ⟨1, _⟩ => show win0_0.index t (1 : Fin 3) * 3 + 1 * ch.val = win0_4.index t (1 : Fin 3) * 3 + 1 * ch.val; omega
    | ⟨2, _⟩ => show win0_0.index t (2 : Fin 3) * 12544 + 1 * l.val = win0_4.index t (2 : Fin 3) * 12544 + 1 * l.val; omega
  have h1 : ((cfg0.win 1).blk t).view.emb (ix3 n ch l) = ((cfg0.win 4).blk t).view.emb (ix3 n ch l) := by
    funext a; apply Fin.ext
    match a with
    | ⟨0, _⟩ => show win0_1.index t (0 : Fin 3) * 8 + 1 * n.val = win0_4.index t (0 : Fin 3) * 8 + 1 * n.val; omega
    | ⟨1, _⟩ => show win0_1.index t (1 : Fin 3) * 3 + 1 * ch.val = win0_4.index t (1 : Fin 3) * 3 + 1 * ch.val; omega
    | ⟨2, _⟩ => show win0_1.index t (2 : Fin 3) * 12544 + 1 * l.val = win0_4.index t (2 : Fin 3) * 12544 + 1 * l.val; omega
  have h2 : ((cfg0.win 2).blk t).view.emb (ix2 n l)
      = ix2 (n0 := 64) (n1 := 50176) (((cfg0.win 4).blk t).view.emb (ix3 n ch l) 0) (((cfg0.win 4).blk t).view.emb (ix3 n ch l) 2) := by
    funext a; apply Fin.ext
    match a with
    | ⟨0, _⟩ => show win0_2.index t (0 : Fin 2) * 8 + 1 * n.val = win0_4.index t (0 : Fin 3) * 8 + 1 * n.val; omega
    | ⟨1, _⟩ => show win0_2.index t (1 : Fin 2) * 12544 + 1 * l.val = win0_4.index t (2 : Fin 3) * 12544 + 1 * l.val; omega
  have h3 : ((cfg0.win 3).blk t).view.emb (ix2 n l)
      = ix2 (n0 := 64) (n1 := 50176) (((cfg0.win 4).blk t).view.emb (ix3 n ch l) 0) (((cfg0.win 4).blk t).view.emb (ix3 n ch l) 2) := by
    funext a; apply Fin.ext
    match a with
    | ⟨0, _⟩ => show win0_3.index t (0 : Fin 2) * 8 + 1 * n.val = win0_4.index t (0 : Fin 3) * 8 + 1 * n.val; omega
    | ⟨1, _⟩ => show win0_3.index t (1 : Fin 2) * 12544 + 1 * l.val = win0_4.index t (2 : Fin 3) * 12544 + 1 * l.val; omega
  show X0 (((cfg0.win 0).blk t).view.emb (ix3 n ch l)) * X2 (((cfg0.win 2).blk t).view.emb (ix2 n l))
      + X1 (((cfg0.win 1).blk t).view.emb (ix3 n ch l)) * X3 (((cfg0.win 3).blk t).view.emb (ix2 n l))
    = combine X0 X1 X2 X3 (((cfg0.win 4).blk t).view.emb (ix3 n ch l))
  rw [h0, h1, h2, h3]
  rfl

/-- What point `t` writes back is block `t` of `combine` of the four arrays as the region finds them. -/
theorem flushed_eq (c : Dev nD) (t : Fin cfg0.N) :
    (dats m 0 c).flushed 4 t = ((cfg0.win 4).blk t).view.read (Elt Ideal)
      (combine (V m c (Pipeline.arrRef spec0 0)) (V m c (Pipeline.arrRef spec0 1))
        (V m c (Pipeline.arrRef spec0 2)) (V m c (Pipeline.arrRef spec0 3))) := by
  show (cfg0.win 4).cut (grid0.coords t) ((dats m 0 c).after 4 t) = _
  rw [after0_4]
  unfold iblk
  exact block_combine t (V m c (Pipeline.arrRef spec0 0)) (V m c (Pipeline.arrRef spec0 1))
    (V m c (Pipeline.arrRef spec0 2)) (V m c (Pipeline.arrRef spec0 3))

/-- A position of the result is in point `t`'s block iff each coordinate is in the block's range on its axis. -/
theorem mem_block (t : Fin cfg0.N) (i : S64x3x50176.Idx) :
    i ∈ ((cfg0.win 4).blk t).view.set ↔ ∀ a : Fin 3, win0_4.index t a * S8x3x12544.size a ≤ (i a).val
      ∧ (i a).val < win0_4.index t a * S8x3x12544.size a + S8x3x12544.size a := by
  show i ∈ ((View.whole main_v201).slice (win0_4.rect t)).set ↔ _
  rw [View.set_slice_whole, Rect.mem_set_unit]
  exact Iff.rfl

/-- Every position of the result is in some point's block: the point at (batch entry / 8, pixel / 12544). -/
theorem covered (i : S64x3x50176.Idx) :
    ∃ t : Fin cfg0.N, (cfg0.win 4).flush t = true ∧ i ∈ ((cfg0.win 4).blk t).view.set := by
  have hi0 : (i 0).val < 64 := (i 0).isLt
  have hi1 : (i 1).val < 3 := (i 1).isLt
  have hi2 : (i 2).val < 50176 := (i 2).isLt
  obtain ⟨t, ht⟩ := block_onto ⟨(i 0).val / 8, by omega⟩ ⟨(i 2).val / 12544, by omega⟩
  have q0 : win0_4.index t (0 : Fin 3) = (i 0).val / 8 := congrFun ht 0
  have q1 : win0_4.index t (1 : Fin 3) = 0 := congrFun ht 1
  have q2 : win0_4.index t (2 : Fin 3) = (i 2).val / 12544 := congrFun ht 2
  refine ⟨t, flush0_4 t, ?_⟩
  rw [mem_block]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 3 ≤ (i 1).val ∧ (i 1).val < win0_4.index t (1 : Fin 3) * 3 + 3; omega
  | ⟨2, _⟩ => show win0_4.index t (2 : Fin 3) * 12544 ≤ (i 2).val ∧ (i 2).val < win0_4.index t (2 : Fin 3) * 12544 + 12544; omega

/-- The result array after the region: `combine` of the four arrays the region reads. -/
theorem final (c : Dev nD) : (dats m 0 c).arrAt 4 cfg0.N
    = combine (V m c (Pipeline.arrRef spec0 0)) (V m c (Pipeline.arrRef spec0 1))
        (V m c (Pipeline.arrRef spec0 2)) (V m c (Pipeline.arrRef spec0 3)) :=
  (dats m 0 c).arrAt_eq_of_cover 4 _ (fun t _ => flushed_eq m c t) covered

end Cert.KernelIdeal.Combine

end
-- ==== Proof.KernelRun.lean ====
/-
  The kernel program's run, read: its result as a function of the four arrays its region reads.

  After the region the program has one more line, the reshape of the region's result array [64, 3, 50176] to
  [64, 3, 224, 224].  The region leaves its result array at `combine` of the four arrays it reads (the blocks cover
  it), every other buffer as it was, so the program's result is that function reshaped; the argument arrays are
  written by no line and end as launched.
-/
import proofs.«140426_j50826642981119_2_alg».proof.Proof.Blocks
import Idealize.ShloMosaic.Lib.StableHlo.Run

noncomputable section

namespace Cert.KernelIdeal.Combine

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.CombineSpec

variable (m : (ℓ : Loc nD τ sig) → Buf (Elt Ideal) ℓ) (ρ : Dev nD → PrngReg)

/-- The program's result on core `c`: `combine` of the four arrays the region reads, reshaped to [64, 3, 224, 224]. -/
def result (c : Dev nD) : S64x3x224x224.Idx → EReal :=
  shapeCast S64x3x224x224
    (combine (V m c (Pipeline.arrRef spec0 0)) (V m c (Pipeline.arrRef spec0 1))
      (V m c (Pipeline.arrRef spec0 2)) (V m c (Pipeline.arrRef spec0 3)))
    shapeCasts_S64x3x50176_S64x3x224x224

/-- What the line after the region leaves in the result buffer: the region's result array, reshaped. -/
theorem tail_eq (c : Dev nD) :
    Pipeline.afterTail₀ cfgs (dats m) 0 (V0 m) [hostOps1] c main_v202 = result m c := by
  unfold Pipeline.afterTail₀
  show StableHlo.after hostOps1 _ (Proc.devRef .tc main_v202) = _
  after_results
  have e : Pipeline.withArrays (cfgs 0).spec c (V0 m c) (fun w => (dats m 0 c).arrAt w (cfgs 0).N)
        (Proc.devRef .tc main_v201)
      = combine (V m c (Pipeline.arrRef spec0 0)) (V m c (Pipeline.arrRef spec0 1))
          (V m c (Pipeline.arrRef spec0 2)) (V m c (Pipeline.arrRef spec0 3)) :=
    (Pipeline.withArrays_arr spec0 launch0.win.arr_inj c (V0 m c) (fun w => (dats m 0 c).arrAt w cfg0.N) 4).trans
      (final m c)
  rw [e]
  rfl

/-- The frame run re-posted: the result buffer at `result`, the argument arrays unchanged. -/
theorem run : θ_run defs (onTc (τ := τ) (main (F := Ideal))) ⟨m, fun _ => 0, ρ⟩ fun r => ∀ c : Dev nD,
      r.2.mem ((c.tc : Thread nD τ).loc main_v202) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v202 (Pipeline.mem_restRefs_of main_v202 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Combine

end
-- ==== Proof.KernelMasks.lean ====
/-
  The two mask arrays the region reads are the mask arguments flattened.

  Before the region the kernel's program reshapes each mask argument [64, 1, 224, 224] to [64, 50176]; no later
  line before the region writes those two buffers or the arguments.
-/
import proofs.«140426_j50826642981119_2_alg».proof.Proof.Gen.KernelIdeal.Frame
import Idealize.ShloMosaic.Lib.StableHlo.Run

noncomputable section

namespace Cert.KernelIdeal.Combine

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The first mask as the region finds it: the fourth argument flattened. -/
theorem mask1_eq (c : Dev nD) :
    V m c main_v199 = shapeCast S64x50176 (launchContents m c (Proc.devRef .tc main_arg3)) shapeCasts_S64x1x224x224_S64x50176 := by
  dsimp only [V, V0, launchContents]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  after_results_simp
  rfl

set_option maxHeartbeats 4000000 in
/-- The second mask as the region finds it: the fifth argument flattened. -/
theorem mask2_eq (c : Dev nD) :
    V m c main_v200 = shapeCast S64x50176 (launchContents m c (Proc.devRef .tc main_arg4)) shapeCasts_S64x1x224x224_S64x50176 := by
  dsimp only [V, V0, launchContents]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append]
  after_results_simp
  rfl

end Cert.KernelIdeal.Combine

end
-- ==== Proof.RefTail.lean ====
/-
  The reference's result from its two warped images.

  The reference's last lines reshape each warped image [64, 3, 50176] to [64, 3, 224, 224], spread each mask argument
  over the 3 channels, multiply, and add.  Read back from the last operation, its result buffer is that expression of
  the two buffers holding the warped images and of the two mask arguments; the warped images themselves stay named
  as the buffers' contents after the whole line.
-/
import proofs.«140426_j50826642981119_2_alg».proof.Proof.RunP

noncomputable section

namespace Cert.WarpEq

open Idealize.ShloMosaic Idealize.ShloMosaic.TcCoe Idealize.SL.Sem Idealize.ShloMosaic.StableHlo

variable {F : FTy → Type} [FloatOps F]

set_option maxHeartbeats 400000000 in
/-- The reference's result: (first warped image reshaped) * (first mask spread) + (second reshaped) * (second spread). -/
theorem ref_result (m' : (ℓ : Loc Cert.ReferenceIdeal.nD Cert.ReferenceIdeal.τ Cert.ReferenceIdeal.sig) → Buf (Elt F) ℓ) (c : Dev Cert.ReferenceIdeal.nD) :
    after (Cert.ReferenceIdeal.ValueP.ops (F := F)) (launchContents m' c) (Proc.devRef .tc Cert.ReferenceIdeal.main_v205)
      = addf (F := F) (s := Cert.ReferenceIdeal.S64x3x224x224) (φ := .f32)
          (mulf (F := F) (s := Cert.ReferenceIdeal.S64x3x224x224) (φ := .f32)
            (shapeCast Cert.ReferenceIdeal.S64x3x224x224
              (after (Cert.ReferenceIdeal.ValueP.ops (F := F)) (launchContents m' c) (Proc.devRef .tc Cert.ReferenceIdeal.main_v105))
              Cert.ReferenceIdeal.Gen.shapeCasts_S64x3x50176_S64x3x224x224)
            (broadcastInDim Cert.ReferenceIdeal.S64x3x224x224 ![0, 1, 2, 3] Cert.ReferenceIdeal.Gen.bcast_S64x1x224x224_S64x3x224x224_0_1_2_3
              (launchContents m' c (Proc.devRef .tc Cert.ReferenceIdeal.main_arg3))))
          (mulf (F := F) (s := Cert.ReferenceIdeal.S64x3x224x224) (φ := .f32)
            (shapeCast Cert.ReferenceIdeal.S64x3x224x224
              (after (Cert.ReferenceIdeal.ValueP.ops (F := F)) (launchContents m' c) (Proc.devRef .tc Cert.ReferenceIdeal.main_v201))
              Cert.ReferenceIdeal.Gen.shapeCasts_S64x3x50176_S64x3x224x224)
            (broadcastInDim Cert.ReferenceIdeal.S64x3x224x224 ![0, 1, 2, 3] Cert.ReferenceIdeal.Gen.bcast_S64x1x224x224_S64x3x224x224_0_1_2_3
              (launchContents m' c (Proc.devRef .tc Cert.ReferenceIdeal.main_arg4)))) := by
  dsimp only [Cert.ReferenceIdeal.ValueP.ops]
  after_results_simp
  first | done | rfl | fail "the reference's tail does not read back as stated"

end Cert.WarpEq

end
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.WarpFirst.lean ====
/-
  The first warped image is computed by the same host operations in both programs.

  Both programs form the sampling coordinates (the pixel grid plus the flow), their floors and ceilings, the four
  corner weights (1 - |px - nx|)(1 - |py - ny|), the four clipped corner indices, gather the first image at them and
  add the four weighted gathers: line for line the same operations on the first image and the flow, in a different
  order and under different buffer names.  Reading each program's line back from its last operation to the arguments
  gives the same term of the two arguments, so the two buffers hold the same array whenever the programs are launched
  on equal arguments.  Nothing is used of the operations but that they are the same.
-/
import proofs.«140426_j50826642981119_2_alg».proof.Proof.Gen.KernelIdeal.Frame
import proofs.«140426_j50826642981119_2_alg».proof.Proof.RunP
import proofs.«140426_j50826642981119_2_alg».proof.Proof.RefTail
import proofs.«140426_j50826642981119_2_alg».proof.Proof.LibResultsRest

noncomputable section

namespace Cert.WarpEq

open Idealize.ShloMosaic Idealize.ShloMosaic.TcCoe Idealize.SL.Sem Idealize.ShloMosaic.StableHlo

variable {F : FTy → Type} [FloatOps F]

set_option maxHeartbeats 400000000 in
/-- The reference's first warped image [64, 3, 50176] is the array the kernel's region reads as its first operand. -/
theorem first_warp (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hi : launchContents m' c (Proc.devRef .tc Cert.ReferenceIdeal.main_arg0) = launchContents m c (Proc.devRef .tc Cert.KernelIdeal.main_arg0))
    (hf : launchContents m' c (Proc.devRef .tc Cert.ReferenceIdeal.main_arg2) = launchContents m c (Proc.devRef .tc Cert.KernelIdeal.main_arg2)) :
    after (Cert.ReferenceIdeal.ValueP.ops (F := F)) (launchContents m' c) (Proc.devRef .tc Cert.ReferenceIdeal.main_v105)
      = Cert.KernelIdeal.Gen.V m c Cert.KernelIdeal.main_v108 := by
  dsimp only [Cert.KernelIdeal.Gen.V, Cert.KernelIdeal.Gen.V0, Cert.ReferenceIdeal.ValueP.ops]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, List.flatten_cons, List.flatten_nil, List.append_nil, List.cons_append, List.nil_append]
  after_results_simp
  after_results_rest
  rw [hi, hf]
  first | rfl | fail "the two warped images' terms differ"

end Cert.WarpEq

end
-- ==== Proof.WarpSecond.lean ====
/-
  The second warped image is computed by the same host operations in both programs.

  Both programs form the sampling coordinates (the pixel grid minus the flow), their floors and ceilings, the four
  corner weights (1 - |px - nx|)(1 - |py - ny|), the four clipped corner indices, gather the second image at them and
  add the four weighted gathers: line for line the same operations on the second image and the flow, in a different
  order and under different buffer names.  Reading each program's line back from its last operation to the arguments
  gives the same term of the two arguments, so the two buffers hold the same array whenever the programs are launched
  on equal arguments.  Nothing is used of the operations but that they are the same.
-/
import proofs.«140426_j50826642981119_2_alg».proof.Proof.Gen.KernelIdeal.Frame
import proofs.«140426_j50826642981119_2_alg».proof.Proof.RunP
import proofs.«140426_j50826642981119_2_alg».proof.Proof.LibResultsRest

noncomputable section

namespace Cert.WarpEq

open Idealize.ShloMosaic Idealize.ShloMosaic.TcCoe Idealize.SL.Sem Idealize.ShloMosaic.StableHlo

variable {F : FTy → Type} [FloatOps F]

set_option maxHeartbeats 400000000 in
/-- The reference's second warped image [64, 3, 50176] is the array the kernel's region reads as its second operand. -/
theorem second_warp (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hi : launchContents m' c (Proc.devRef .tc Cert.ReferenceIdeal.main_arg1) = launchContents m c (Proc.devRef .tc Cert.KernelIdeal.main_arg1))
    (hf : launchContents m' c (Proc.devRef .tc Cert.ReferenceIdeal.main_arg2) = launchContents m c (Proc.devRef .tc Cert.KernelIdeal.main_arg2)) :
    after (Cert.ReferenceIdeal.ValueP.ops (F := F)) (launchContents m' c) (Proc.devRef .tc Cert.ReferenceIdeal.main_v201)
      = Cert.KernelIdeal.Gen.V m c Cert.KernelIdeal.main_v198 := by
  dsimp only [Cert.KernelIdeal.Gen.V, Cert.KernelIdeal.Gen.V0, Cert.ReferenceIdeal.ValueP.ops]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, List.flatten_cons, List.flatten_nil, List.append_nil, List.cons_append, List.nil_append]
  after_results_simp
  after_results_rest
  rw [hi, hf]
  first | rfl | fail "the two warped images' terms differ"

end Cert.WarpEq

end
-- ==== Proof.Bridge.lean ====
/-
  The two programs' results agree.

  The reference's result is (first warped image reshaped) * (first mask spread over the channels) + (second warped
  image reshaped) * (second mask spread).  The two warped images are the arrays the kernel's region reads, the masks
  are the same arguments, and multiplying and adding after the reshape is reshaping after multiplying and adding
  (`CombineSpec.reshaped_combine`), where the kernel's program reads each mask flattened.  That is the kernel
  program's result.
-/
import proofs.«140426_j50826642981119_2_alg».proof.Proof.KernelRun
import proofs.«140426_j50826642981119_2_alg».proof.Proof.KernelMasks
import proofs.«140426_j50826642981119_2_alg».proof.Proof.WarpFirst
import proofs.«140426_j50826642981119_2_alg».proof.Proof.WarpSecond
import proofs.«140426_j50826642981119_2_alg».proof.Proof.RefTail
import proofs.«140426_j50826642981119_2_alg».proof.Proof.Spec

noncomputable section

namespace Cert.WarpEq

open Idealize.ShloMosaic Idealize.ShloMosaic.TcCoe Idealize.SL.Sem Idealize.ShloMosaic.StableHlo

/-- From launch memories that agree on the five arguments, the reference's result buffer after its whole line holds
    the kernel program's result. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : launchContents m' c (Proc.devRef .tc Cert.ReferenceIdeal.main_arg0) = launchContents m c (Proc.devRef .tc Cert.KernelIdeal.main_arg0))
    (h1 : launchContents m' c (Proc.devRef .tc Cert.ReferenceIdeal.main_arg1) = launchContents m c (Proc.devRef .tc Cert.KernelIdeal.main_arg1))
    (h2 : launchContents m' c (Proc.devRef .tc Cert.ReferenceIdeal.main_arg2) = launchContents m c (Proc.devRef .tc Cert.KernelIdeal.main_arg2))
    (h3 : launchContents m' c (Proc.devRef .tc Cert.ReferenceIdeal.main_arg3) = launchContents m c (Proc.devRef .tc Cert.KernelIdeal.main_arg3))
    (h4 : launchContents m' c (Proc.devRef .tc Cert.ReferenceIdeal.main_arg4) = launchContents m c (Proc.devRef .tc Cert.KernelIdeal.main_arg4)) :
    after (Cert.ReferenceIdeal.ValueP.ops (F := Ideal)) (launchContents m' c) (Proc.devRef .tc Cert.ReferenceIdeal.main_v205)
      = Cert.KernelIdeal.Combine.result m c := by
  rw [ref_result m' c, first_warp m m' c h0 h2, second_warp m m' c h1 h2, h3, h4]
  refine (Cert.CombineSpec.reshaped_combine (Cert.KernelIdeal.Gen.V m c Cert.KernelIdeal.main_v108) (Cert.KernelIdeal.Gen.V m c Cert.KernelIdeal.main_v198)
    (launchContents m c (Proc.devRef .tc Cert.KernelIdeal.main_arg3)) (launchContents m c (Proc.devRef .tc Cert.KernelIdeal.main_arg4))
    Cert.ReferenceIdeal.Gen.shapeCasts_S64x3x50176_S64x3x224x224 Cert.ReferenceIdeal.Gen.bcast_S64x1x224x224_S64x3x224x224_0_1_2_3
    Cert.KernelIdeal.Gen.shapeCasts_S64x1x224x224_S64x50176).trans ?_
  rw [← Cert.KernelIdeal.Combine.mask1_eq m c, ← Cert.KernelIdeal.Combine.mask2_eq m c]
  rfl

end Cert.WarpEq

end
-- ==== Proof.lean ====
/-
  The kernel (two bilinear warps by opposite flows, weighted by two masks and added) against its reference.

  Both programs compute the two warped images on the host with the same operations; they differ only in the last
  step.  The kernel's program flattens the two masks, lets the Pallas kernel form
  `warped1 * mask1 + warped2 * mask2` block by block over an 8 × 4 grid on arrays [64, 3, 50176], and reshapes the
  result to [64, 3, 224, 224]; the reference reshapes each warped image to [64, 3, 224, 224], spreads each mask over
  the 3 channels, and multiplies and adds there.

  * The three frames: the kernel's and the idealized kernel's are the generated frame certificates; the reference has
    no kernel launch and its frame is its straight-line run.
  * The ideal pass rewrote nothing, so there is nothing to preserve.
  * The results: the kernel's blocks cover its result array, which is therefore one function (`combine`) of the four
    arrays the region reads (Proof/Payload, Proof/Blocks, Proof/KernelRun); the two warped images are the same arrays
    in both programs (Proof/WarpFirst, Proof/WarpSecond), the masks are the arguments (Proof/KernelMasks), and the
    reference's last lines spell the same products and the same sum entry by entry (Proof/RefTail, Proof/Spec,
    Proof/Bridge).  No law of the extended reals is needed beyond reading both sides at an entry, so the
    precondition is not used.
-/
import proofs.«140426_j50826642981119_2_alg».proof.Defs
import proofs.«140426_j50826642981119_2_alg».proof.Proof.Gen.Kernel
import proofs.«140426_j50826642981119_2_alg».proof.Proof.Gen.Kernel.Skeleton
import proofs.«140426_j50826642981119_2_alg».proof.Proof.Gen.Kernel.Launch
import proofs.«140426_j50826642981119_2_alg».proof.Proof.Gen.Kernel.Points
import proofs.«140426_j50826642981119_2_alg».proof.Proof.Gen.Kernel.Frame
import proofs.«140426_j50826642981119_2_alg».proof.Proof.Gen.KernelIdeal
import proofs.«140426_j50826642981119_2_alg».proof.Proof.Gen.KernelIdeal.Skeleton
import proofs.«140426_j50826642981119_2_alg».proof.Proof.Gen.KernelIdeal.Launch
import proofs.«140426_j50826642981119_2_alg».proof.Proof.Gen.KernelIdeal.Points
import proofs.«140426_j50826642981119_2_alg».proof.Proof.Gen.KernelIdeal.Frame
import proofs.«140426_j50826642981119_2_alg».proof.Proof.Gen.ReferenceIdeal
import proofs.«140426_j50826642981119_2_alg».proof.Proof.Gen.Pre_finite_inputs
import proofs.«140426_j50826642981119_2_alg».proof.Proof.RunP
import proofs.«140426_j50826642981119_2_alg».proof.Proof.RefArgs
import proofs.«140426_j50826642981119_2_alg».proof.Proof.RefRun
import proofs.«140426_j50826642981119_2_alg».proof.Proof.KernelRun
import proofs.«140426_j50826642981119_2_alg».proof.Proof.Bridge
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c =>
    ⟨(h c Cert.ReferenceIdeal.main_arg0).trans (Cert.WarpEq.arg0_kept m c), (h c Cert.ReferenceIdeal.main_arg1).trans (Cert.WarpEq.arg1_kept m c),
     (h c Cert.ReferenceIdeal.main_arg2).trans (Cert.WarpEq.arg2_kept m c), (h c Cert.ReferenceIdeal.main_arg3).trans (Cert.WarpEq.arg3_kept m c),
     (h c Cert.ReferenceIdeal.main_arg4).trans (Cert.WarpEq.arg4_kept m c)⟩) (Cert.WarpEq.reference_run m ρ)

theorem preserves : Cert.preserves_Kernel_KernelIdeal := trivial

/-- Both programs end with the kernel program's result: the kernel's by its frame run read through the line after the
    region, the reference's by its straight-line run and the agreement of the two results. -/
theorem algebraic : Cert.algebraic_KernelIdeal_ReferenceIdeal := by
  intro m ρ m' ρ' _ hagree
  refine ⟨fun c => Cert.KernelIdeal.Combine.result m c, Cert.KernelIdeal.Combine.run m ρ, ?_⟩
  exact (θ_run Cert.ReferenceIdeal.defs _ _).mono (fun _ h c =>
    ⟨(h c Cert.ReferenceIdeal.main_v205).trans (Cert.WarpEq.results_agree m m' c (hagree c).1 (hagree c).2.1 (hagree c).2.2.1
        (hagree c).2.2.2.1 (hagree c).2.2.2.2),
     (h c Cert.ReferenceIdeal.main_arg0).trans (Cert.WarpEq.arg0_kept m' c), (h c Cert.ReferenceIdeal.main_arg1).trans (Cert.WarpEq.arg1_kept m' c),
     (h c Cert.ReferenceIdeal.main_arg2).trans (Cert.WarpEq.arg2_kept m' c), (h c Cert.ReferenceIdeal.main_arg3).trans (Cert.WarpEq.arg3_kept m' c),
     (h c Cert.ReferenceIdeal.main_arg4).trans (Cert.WarpEq.arg4_kept m' c)⟩) (Cert.WarpEq.reference_run m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
